-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x100000 : Shape := ⟨2, ![256, 100000]⟩
abbrev S1x256 : Shape := ⟨2, ![1, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x100000 : S_.BroadcastsInDim S256x100000 (![] : Fin 0 → Fin S256x100000.rank)
  reducesTo_S256x100000_S_d0_1 : S256x100000.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S256x100000 1) : IVec S_ 1 :=
  let main_c_5 : IVec S_ 1 := constantI S_ 1 1#1
  let main_v17 : IVec S_ 1 := (fun x v => Host.reduce IntOp.andi x v reducesTo_S256x100000_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S100000x256 .f32) (main_arg1 : FVec F S100000x256 .f32) (main_arg2 : FVec F S100000x256 .f32) (main_arg3 : FVec F S256x100000 .f32) (main_arg4 : FVec F S1x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S256x100000 .f32 := Host.absf main_arg3
  let main_cst_4 : FVec F S_ .f32 := constant S_ .f32 0x7F800000#32
  let main_v15 : FVec F S256x100000 .f32 := broadcastInDim S256x100000 ![] bcast_S_S256x100000 main_cst_4
  let main_v16 : IVec S256x100000 1 := cmpf .olt main_v14 main_v15
  fn_part1 (F := F) main_arg4 main_v13 main_v16
-- ==== Kernel.lean ====
abbrev S100000x256 : Shape := ⟨2, ![100000, 256]⟩
abbrev S256x100000 : Shape := ⟨2, ![256, 100000]⟩
abbrev S1x256 : Shape := ⟨2, ![1, 256]⟩
abbrev S2x256x256 : Shape := ⟨3, ![2, 256, 256]⟩
abbrev S2000x256 : Shape := ⟨2, ![2000, 256]⟩
abbrev S1x256x256 : Shape := ⟨3, ![1, 256, 256]⟩
abbrev S256x256 : Shape := ⟨2, ![256, 256]⟩
abbrev S3x256 : Shape := ⟨2, ![3, 256]⟩
abbrev S_ : Shape := ⟨0, ![]⟩
abbrev S256 : Shape := ⟨1, ![256]⟩
abbrev S4000x256 : Shape := ⟨2, ![4000, 256]⟩

abbrev nBuf : Space → Nat
  | .hbm => 50
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S256x100000, .f32⟩
  | .hbm, ⟨4, _⟩ => ⟨S1x256, .f32⟩
  | .hbm, ⟨5, _⟩ => ⟨S100000x256, .f32⟩
  | .hbm, ⟨6, _⟩ => ⟨S100000x256, .bf16⟩
  | .hbm, ⟨7, _⟩ => ⟨S2x256x256, .f32⟩
  | .hbm, ⟨8, _⟩ => ⟨S2x256x256, .f32⟩
  | .hbm, ⟨9, _⟩ => ⟨S2x256x256, .f32⟩
  | .hbm, ⟨10, _⟩ => ⟨S1x256x256, .f32⟩
  | .hbm, ⟨11, _⟩ => ⟨S256x256, .f32⟩
  | .hbm, ⟨12, _⟩ => ⟨S1x256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S1x256x256, .f32⟩
  | .hbm, ⟨17, _⟩ => ⟨S256x256, .f32⟩
  | .hbm, ⟨18, _⟩ => ⟨S1x256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S1x256x256, .f32⟩
  | .hbm, ⟨23, _⟩ => ⟨S256x256, .f32⟩
  | .hbm, ⟨24, _⟩ => ⟨S1x256x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S3x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S3x256, .f32⟩
  | .hbm, ⟨39, _⟩ => ⟨S3x256, .f32⟩
  | .hbm, ⟨40, _⟩ => ⟨S3x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S3x256, .f32⟩
  | .hbm, ⟨45, _⟩ => ⟨S3x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S100000x256, .f32⟩
  | .local _ .vmem, ⟨0, _⟩ => ⟨S2000x256, .bf16⟩
  | .local _ .vmem, ⟨1, _⟩ => ⟨S2000x256, .bf16⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S4000x256, .f32⟩
  | .local _ .vmem, ⟨27, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v29 : BitVec 1 := Scalar.cmpi .eq arg1 c24_i32
  let v30 : BitVec 32 := Scalar.extui v29
  let c0_i32_22 : BitVec 32 := 0#32
  let v31 : BitVec 1 := Scalar.cmpi .ne v30 c0_i32_22
  v31

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x100000_S100000x256_1_0 : S256x100000.Transposes [1, 0] S100000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  slices_S2x256x256_S1x256x256_0_0_0 : S2x256x256.Slices ![0, 0, 0] S1x256x256
  slices_S2x256x256_S1x256x256_1_0_0 : S2x256x256.Slices ![1, 0, 0] S1x256x256
  concatenates_S1x256_S1x256_S1x256_S3x256_d0 : Shape.Concatenates [S1x256, S1x256, S1x256] S3x256 0
  reducesTo_S3x256_S256_d0 : S3x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S3x256_0_1 : S1x256.BroadcastsInDim S3x256 (![0, 1] : Fin 2 → Fin S3x256.rank)
  slices_S3x256_S1x256_0_0 : S3x256.Slices ![0, 0] S1x256
  slices_S3x256_S1x256_1_0 : S3x256.Slices ![1, 0] S1x256
  slices_S3x256_S1x256_2_0 : S3x256.Slices ![2, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x256_S4000x256_0_0 : ∀ a, (![0, 0] : Fin 2 → Nat) a + S4000x256.size a ≤ S4000x256.size a
  h_S4000x256 : 0 < S4000x256.numel
  broadcasts_S1x256_S4000x256 : S1x256.Broadcasts S4000x256
  dot_S2000x256_S2000x256_S256x256_0_0_1_1_n_n_wf : DotDims.WF S2000x256 S2000x256 S256x256 [0] [0] [1] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .bf16 = 32 ∨ (Rect.block (s := S100000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S2x256x256.size a
  hwx0_4 : ∀ i : grid0.Coords, EltTy.bits .f32 = 32 ∨ (Rect.block (s := S2x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S2x256x256.size a
  hwx0_5 : ∀ i : grid0.Coords, EltTy.bits .f32 = 32 ∨ (Rect.block (s := S2x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S2x256x256.size a
  hwx0_6 : ∀ i : grid0.Coords, EltTy.bits .f32 = 32 ∨ (Rect.block (s := S2x256x256) S1x256x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S100000x256.size a
  hwx1_6 : ∀ i : grid1.Coords, EltTy.bits .f32 = 32 ∨ (Rect.block (s := S100000x256) S4000x256.size (cc1_transform_6 i) (hinb1_6 i)).WholeWords (EltTy.packing .f32)

variable [Facts₀]

def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_v1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x100000 : Shape := ⟨2, ![256, 100000]⟩
abbrev S1x256 : Shape := ⟨2, ![1, 256]⟩
abbrev S256x256 : Shape := ⟨2, ![256, 256]⟩
abbrev S3x256 : Shape := ⟨2, ![3, 256]⟩
abbrev S_ : Shape := ⟨0, ![]⟩
abbrev S256 : Shape := ⟨1, ![256]⟩

abbrev nBuf : Space → Nat
  | .hbm => 46
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S256x100000, .f32⟩
  | .hbm, ⟨4, _⟩ => ⟨S1x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S3x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S3x256, .f32⟩
  | .hbm, ⟨22, _⟩ => ⟨S3x256, .f32⟩
  | .hbm, ⟨23, _⟩ => ⟨S3x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S3x256, .f32⟩
  | .hbm, ⟨28, _⟩ => ⟨S3x256, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]

class Facts₀ : Prop where
  concatenates_S1x256_S1x256_S1x256_S3x256_d0 : Shape.Concatenates [S1x256, S1x256, S1x256] S3x256 0
  reducesTo_S3x256_S256_d0 : S3x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S3x256_0_1 : S1x256.BroadcastsInDim S3x256 (![0, 1] : Fin 2 → Fin S3x256.rank)
  slices_S3x256_S1x256_0_0 : S3x256.Slices ![0, 0] S1x256
  shapeCasts_S1x256_S256 : S1x256.ShapeCasts S256
  bcast_S1x256_S100000x256_0_1 : S1x256.BroadcastsInDim S100000x256 (![0, 1] : Fin 2 → Fin S100000x256.rank)
  slices_S3x256_S1x256_1_0 : S3x256.Slices ![1, 0] S1x256
  slices_S3x256_S1x256_2_0 : S3x256.Slices ![2, 0] S1x256
  dot_S256x100000_S100000x256_S256x256_1_0_0_1_n_n_wf : DotDims.WF S256x100000 S100000x256 S256x256 [1] [0] [0] [1] [] []
  dot_S1x256_S256x256_S1x256_1_0_0_1_n_n_wf : DotDims.WF S1x256 S256x256 S1x256 [1] [0] [0] [1] [] []

variable [Facts₀]

def dot_S256x100000_S100000x256_S256x256_1_0_0_1_n_n : DotDims S256x100000 S100000x256 S256x256 where
  lhsContracting := [1]
  rhsContracting := [0]
  lhsNonContracting := [0]
  rhsNonContracting := [1]
  lhsBatch := []
  rhsBatch := []
  wf := dot_S256x100000_S100000x256_S256x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

class Facts : Prop extends Facts₀ where

variable [Facts]
-- ==== Proof.K.R0Runs.lean ====
import proofs.«142304_j59837484368571_2_alg».proof.Proof.Gen.Kernel.Launch
import proofs.«142304_j59837484368571_2_alg».proof.Proof.Gen.Kernel.Skeleton
import proofs.«142304_j59837484368571_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel region (the partial products over the two halves of the contracted axis), at the contents
    `V` the region is entered with: what its three cases share.

The grid is 2 × 25: point `t` is step `t % 25` of core-half `t / 25`. At step 0 the three accumulators are zeroed, at
every step the product of the step's rows is added to each, at step 24 the accumulators are copied to the outputs. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched there or
    not, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched there or
    not, for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, fetched there or
    not, for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, fetched there or
    not, for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is a core's first step": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is a core's last step": the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- In the case "first accumulation step of a core" output 4 is idle: nothing is stored into it and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- The same in the case "a middle accumulation step". -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- In the case "last accumulation step of a core" output 4 is live: the accumulator is stored into it. -/
theorem liveAt0_4_C : ∀ t : Fin cfg0.N, ¬cond0_0 (grid0.coords t) → cond0_1 (grid0.coords t) → cfg0.idle 4 (grid0.coords t) = false := by decide +kernel

/-- In the case "first accumulation step of a core" output 5 is idle: nothing is stored into it and it is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same in the case "a middle accumulation step". -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- In the case "last accumulation step of a core" output 5 is live: the accumulator is stored into it. -/
theorem liveAt0_5_C : ∀ t : Fin cfg0.N, ¬cond0_0 (grid0.coords t) → cond0_1 (grid0.coords t) → cfg0.idle 5 (grid0.coords t) = false := by decide +kernel

/-- In the case "first accumulation step of a core" output 6 is idle: nothing is stored into it and it is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- The same in the case "a middle accumulation step". -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- In the case "last accumulation step of a core" output 6 is live: the accumulator is stored into it. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_4 : View sig .tc .vmem S1x256x256 .f32 := (Memref.whole cc0_stg4_0 : Memref sig .tc .vmem S1x256x256 .f32).view
abbrev VO0_5 : View sig .tc .vmem S1x256x256 .f32 := (Memref.whole cc0_stg5_0 : Memref sig .tc .vmem S1x256x256 .f32).view
abbrev VO0_6 : View sig .tc .vmem S1x256x256 .f32 := (Memref.whole cc0_stg6_0 : Memref sig .tc .vmem S1x256x256 .f32).view
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
/-- The three accumulators: whole scoped buffers of the kernel's own. -/
abbrev scM0_0 : Memref sig .tc .vmem S256x256 .f32 := Memref.whole cc0_scratch0
abbrev scM0_1 : Memref sig .tc .vmem S256x256 .f32 := Memref.whole cc0_scratch1
abbrev scM0_2 : Memref sig .tc .vmem S256x256 .f32 := Memref.whole cc0_scratch2
abbrev VS0_0 : View sig .tc .vmem S256x256 .f32 := scM0_0.view
abbrev VS0_1 : View sig .tc .vmem S256x256 .f32 := scM0_1.view
abbrev VS0_2 : View sig .tc .vmem S256x256 .f32 := scM0_2.view

/-- The scoped buffers of the core that this region neither stages nor uses (the second region's staging buffers), each
    whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's plain invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA Rest0; rw [scopedRest0_eq]; simp only [scM0_0, scM0_1, scM0_2, owns_whole]; try rfl

end Cert.Kernel.Hand

end
-- ==== Proof.K.R0RunA.lean ====
import proofs.«142304_j59837484368571_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a core's FIRST step (the accumulators are zeroed, then the step's products added; nothing is stored to the outputs, which are handed back untouched): the pieces each output and each accumulator ends with (last store first), with the proof
    that from whole memrefs at the stated contents the body runs to its return leaving the inputs as they were and those
    pieces written. -/
noncomputable def kernelRun0_A (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i)
    (x0 : Vec F S2000x256 .bf16) (x1 : Vec F S2000x256 .f32) (x2 : Vec F S2000x256 .f32) (x3 : Vec F S2000x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (xi4 xi5 xi6 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.R0RunB.lean ====
import proofs.«142304_j59837484368571_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a MIDDLE step (the step's products are added to the accumulators, found at the contents the step before left; the outputs are handed back untouched): the pieces each output and each accumulator ends with (last store first), with the proof
    that from whole memrefs at the stated contents the body runs to its return leaving the inputs as they were and those
    pieces written. -/
noncomputable def kernelRun0_B (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i)
    (x0 : Vec F S2000x256 .bf16) (x1 : Vec F S2000x256 .f32) (x2 : Vec F S2000x256 .f32) (x3 : Vec F S2000x256 .f32) (xs0 : Vec F S256x256 .f32) (xs1 : Vec F S256x256 .f32) (xs2 : Vec F S256x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (xi4 xi5 xi6 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.R0RunC.lean ====
import proofs.«142304_j59837484368571_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a core's LAST step (the step's products are added to the accumulators, which are then copied to the three outputs): the pieces each output and each accumulator ends with (last store first), with the proof
    that from whole memrefs at the stated contents the body runs to its return leaving the inputs as they were and those
    pieces written. -/
noncomputable def kernelRun0_C (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i)
    (x0 : Vec F S2000x256 .bf16) (x1 : Vec F S2000x256 .f32) (x2 : Vec F S2000x256 .f32) (x3 : Vec F S2000x256 .f32) (xs0 : Vec F S256x256 .f32) (xs1 : Vec F S256x256 .f32) (xs2 : Vec F S256x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.K.R0Frame.lean ====
import proofs.«142304_j59837484368571_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel region: what each case leaves, the accumulation point by point, the proof data and the body
    obligation, at the contents `V` the region is entered with. -/

/-! ## The stores of each case cover the buffers they are read back from -/

theorem scover0_A_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S256x256.size (by sl_kernel_rfl) y
theorem scover0_A_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S256x256.size (by sl_kernel_rfl) y
theorem scover0_A_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S256x256.size (by sl_kernel_rfl) y
theorem scover0_B_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S256x256.size (by sl_kernel_rfl) y
theorem scover0_B_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S256x256.size (by sl_kernel_rfl) y
theorem scover0_B_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S256x256.size (by sl_kernel_rfl) y
theorem scover0_C_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S256x256.size (by sl_kernel_rfl) y
theorem scover0_C_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S256x256.size (by sl_kernel_rfl) y
theorem scover0_C_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S256x256.size (by sl_kernel_rfl) y
theorem cover0_C_4 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1x256x256.size (by sl_kernel_rfl) y
theorem cover0_C_5 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1x256x256.size (by sl_kernel_rfl) y
theorem cover0_C_6 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1x256x256.size (by sl_kernel_rfl) y

/-- The three outputs' buffers and the three accumulators, in that order. -/
abbrev Tup0 (F : FTy → Type) [FloatOps F] : Type :=
  Vec F S1x256x256 .f32 × Vec F S1x256x256 .f32 × Vec F S1x256x256 .f32 × Vec F S256x256 .f32 × Vec F S256x256 .f32 × Vec F S256x256 .f32

/-- What the case leaves at point `t`: the three outputs' buffers, then the three accumulators, each its pieces read back. -/
def tupA (c : Dev nD) (t : Fin cfg0.N) (hc0 : cond0_0 (grid0.coords t)) (hc1 : ¬cond0_1 (grid0.coords t)) : Tup0 F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).1),
   VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.1),
   VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.2.2.1))

/-- What the case leaves at point `t`: the three outputs' buffers, then the three accumulators, each its pieces read back. -/
def tupB (c : Dev nD) (t : Fin cfg0.N) (hc0 : ¬cond0_0 (grid0.coords t)) (hc1 : ¬cond0_1 (grid0.coords t)) (xs0 xs1 xs2 : Vec F S256x256 .f32) : Tup0 F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).1),
   VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.1),
   VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.2.1))

/-- What the case leaves at point `t`: the three outputs' buffers, then the three accumulators, each its pieces read back. -/
def tupC (c : Dev nD) (t : Fin cfg0.N) (hc0 : ¬cond0_0 (grid0.coords t)) (hc1 : cond0_1 (grid0.coords t)) (xs0 xs1 xs2 : Vec F S256x256 .f32) : Tup0 F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).1),
   VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.1),
   VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.2.1))

/-! ## The accumulation -/

/-- What the outputs' buffers and the accumulators hold after the body at position `n`: the case the position is in
    (first step of a core: `n % 25 = 0`; last: `n % 25 = 24`; otherwise a middle step), run on the point's blocks, the
    accumulators found at what position `n - 1` left. -/
def outsAt0 (c : Dev nD) : (n : ℕ) → n < cfg0.N → Tup0 F
  | 0, hn => tupA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      if h1 : (n + 1) % 25 = 24 then
        False.elim (by omega)
      else
        tupA V c ⟨n + 1, hn⟩ ((hcond0_0 ⟨n + 1, hn⟩).mpr h0) (fun h => h1 ((hcond0_1 ⟨n + 1, hn⟩).mp h))
    else
      if h1 : (n + 1) % 25 = 24 then
        tupC V c ⟨n + 1, hn⟩ (fun h => h0 ((hcond0_0 ⟨n + 1, hn⟩).mp h)) ((hcond0_1 ⟨n + 1, hn⟩).mpr h1) (outsAt0 c n (Nat.lt_of_succ_lt hn)).2.2.2.1 (outsAt0 c n (Nat.lt_of_succ_lt hn)).2.2.2.2.1 (outsAt0 c n (Nat.lt_of_succ_lt hn)).2.2.2.2.2
      else
        tupB V c ⟨n + 1, hn⟩ (fun h => h0 ((hcond0_0 ⟨n + 1, hn⟩).mp h)) (fun h => h1 ((hcond0_1 ⟨n + 1, hn⟩).mp h)) (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 25 = 0) (h1 : ¬t.val % 25 = 24) :
    outsAt0 V c t.val t.isLt = tupA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = tupB V c t (fun h => h0 ((hcond0_0 t).mp h)) (fun h => h1 ((hcond0_1 t).mp h)) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = tupC V c t (fun h => h0 ((hcond0_0 t).mp h)) ((hcond0_1 t).mpr h1) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried between points -/

/-- Before the first point the region's plain invariant; afterwards the three accumulators at what the point before left
    in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.2.2.1 ∗ owns (c : Thread nD τ) scM0_1 fullShare (outsAt0 V c (n - 1) (by omega)).2.2.2.2.1 ∗ owns (c : Thread nD τ) scM0_2 fullShare (outsAt0 V c (n - 1) (by omega)).2.2.2.2.2 ∗ Rest0 c) ∗ (∃ r, prngReg c r)) := by
  cases n with
  | zero => exact absurd rfl hz
  | succ n => rfl

/-! ## The proof data -/

/-- The region's proof data on core `c`: the arrays as the region finds them; after the body at point `t` each input's
    buffer at its block, each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
/-- The body at any point. The inputs' buffers hold their blocks; the closed forms say which case the point is in; the
    invariant hands the body the accumulators at what the point before left (at anything before the first point) and
    takes them back at this point's contents; an idle output is handed back untouched; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · -- a core's first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold tupA; (try dsimp only)
      by_cases hz : t.val = 0
      · rw [PhiS_castSucc V c t, PhiS_zero V c _ _ hz, PhiA0_eq]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_A_0 c)
            isplitl [HS1]
            · unfold owns; iexists _; isplitr
              swap; · iexact HS1
              ipureintro; exact View.read_writes_of_cover _ _ _ _ _ (scover0_A_1 c)
            isplitl [HS2]
            · unfold owns; iexists _; isplitr
              swap; · iexact HS2
              ipureintro; exact View.read_writes_of_cover _ _ _ _ _ (scover0_A_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_A_0 c)
            isplitl [HS1]
            · unfold owns; iexists _; isplitr
              swap; · iexact HS1
              ipureintro; exact View.read_writes_of_cover _ _ _ _ _ (scover0_A_1 c)
            isplitl [HS2]
            · unfold owns; iexists _; isplitr
              swap; · iexact HS2
              ipureintro; exact View.read_writes_of_cover _ _ _ _ _ (scover0_A_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 25 = 24
    · -- a core's last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold tupC; (try dsimp only)
      have hz : t.val ≠ 0 := by omega
      rw [PhiS_castSucc V c t, PhiS_pos V c _ _ hz]
      · iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_C_0 c)
            isplitl [HS1]
            · unfold owns; iexists _; isplitr
              swap; · iexact HS1
              ipureintro; exact View.read_writes_of_cover _ _ _ _ _ (scover0_C_1 c)
            isplitl [HS2]
            · unfold owns; iexists _; isplitr
              swap; · iexact HS2
              ipureintro; exact View.read_writes_of_cover _ _ _ _ _ (scover0_C_2 c)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c)
        isplitl [H5]
        · unfold owns; iexists _; isplitr
          swap; · iexact H5
          ipureintro; exact View.read_writes_of_cover _ _ _ _ _ (cover0_C_5 c)
        unfold owns; iexists _; isplitr
        swap; · iexact H6
        ipureintro; exact View.read_writes_of_cover _ _ _ _ _ (cover0_C_6 c)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold tupB; (try dsimp only)
      have hz : t.val ≠ 0 := by omega
      rw [PhiS_castSucc V c t, PhiS_pos V c _ _ hz]
      · iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_B_0 c)
            isplitl [HS1]
            · unfold owns; iexists _; isplitr
              swap; · iexact HS1
              ipureintro; exact View.read_writes_of_cover _ _ _ _ _ (scover0_B_1 c)
            isplitl [HS2]
            · unfold owns; iexists _; isplitr
              swap; · iexact HS2
              ipureintro; exact View.read_writes_of_cover _ _ _ _ _ (scover0_B_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.R1Frame.lean ====
import proofs.«142304_j59837484368571_2_alg».proof.Proof.Gen.Kernel.Launch
import proofs.«142304_j59837484368571_2_alg».proof.Proof.Gen.Kernel.Skeleton
import proofs.«142304_j59837484368571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the fused weighted sum), class-A half at a parameter entry valuation

The second TensorCore region of `@main` runs `cc1__fuse_kernel` over a grid of 25 points. Its pipeline has seven
windows: three row blocks of 4000 rows (inputs 0, 1, 2, one block per point), three `1 × 256` weight rows (inputs
3, 4, 5, the same block at every point, fetched once) and one output row block (window 6, written back at every
point). At each point the body reads all six input buffers whole and stores, whole,
`w₃ · x₀ + w₄ · x₁ + w₅ · x₂` (the weights broadcast along the rows) into the output buffer.

Everything is stated at a PARAMETER `V`: the TensorCore's buffer contents when the region is entered.
-/

-- membership in a rectangle of 4000 × 256 indices: the elaborator's structural look recurses once per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`); the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for ANY proof data whose array is
    `V`'s (`hA`) and whose body leaves the block in place (`hafter`); the window is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for ANY proof data whose array is
    `V`'s (`hA`) and whose body leaves the block in place (`hafter`); the window is fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for ANY proof data whose array is
    `V`'s (`hA`) and whose body leaves the block in place (`hafter`); the window's block index is constant, so where it is not fetched the buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for ANY proof data whose array is
    `V`'s (`hA`) and whose body leaves the block in place (`hafter`); the window's block index is constant, so where it is not fetched the buffer still holds the same block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for ANY proof data whose array is
    `V`'s (`hA`) and whose body leaves the block in place (`hafter`); the window's block index is constant, so where it is not fetched the buffer still holds the same block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row block, and the whole of a weight row: every load and the one store of the body go through one
    of these two. -/
abbrev r1_0 : Rect S4000x256 := Rect.unit (s := S4000x256) ![0, 0] S4000x256.size inb_S4000x256_S4000x256_0_0
abbrev r1_1 : Rect S1x256 := Rect.unit (s := S1x256) ![0, 0] S1x256.size inb_S1x256_S1x256_0_0

/-! ## What the body leaves in the output window's buffer -/

/-- Window 6's staging buffer after the body, from the six input windows' blocks: its one store as a piece. The
    payload takes, in this order, weight 3, block 0, weight 4, block 1, weight 5, block 2. -/
def out1_6 (x0 x1 x2 : Vec F S4000x256 .f32) (x3 x4 x5 : Vec F S1x256 .f32) : Vec F S4000x256 .f32 :=
  View.canon [⟨r1_0, k1_pay1 (View.ld x3 r1_1) (View.ld x0 r1_0) (View.ld x4 r1_1) (View.ld x1 r1_0) (View.ld x5 r1_1) (View.ld x2 r1_0)⟩]

/-- The one store covers the buffer (checked by evaluation). -/
theorem cover1_6 (p0 : Vec F S4000x256 .f32) (y : S4000x256.Idx) :
    ∃ pc ∈ ([⟨r1_0, p0⟩] : List (View.Piece (Elt F) S4000x256 .f32)), y ∈ pc.1.set :=
  View.cover_of_tiled [⟨r1_0, p0⟩] S4000x256.size (by rfl) y

/-! ## The body's triple -/

set_option maxHeartbeats 1000000 in
/-- The kernel body on whole staging memrefs, the six inputs' at read contents `x0 … x5` and the output's at anything,
    runs to the continuation holding the inputs' as they were and the output's at `out1_6` of the inputs'. The body
    also loads the output buffer before storing it; the value read is not used. -/
theorem sound_kernel1 (c : Dev nD) (E : Set ℕ) (i : grid1.Coords)
    (arg1 : Memref sig .tc .vmem S4000x256 .f32) (harg1 : arg1.IsWhole) (arg2 : Memref sig .tc .vmem S4000x256 .f32) (harg2 : arg2.IsWhole)
    (arg3 : Memref sig .tc .vmem S4000x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S4000x256 .f32) (harg7 : arg7.IsWhole)
    (x0 x1 x2 : Vec F S4000x256 .f32) (x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__fuse_kernel i arg1 harg1 arg2 harg2 arg3 harg3 arg4 harg4 arg5 harg5 arg6 harg6 arg7 harg7) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«142304_j59837484368571_2_alg».proof.Proof.K.R0Frame
import proofs.«142304_j59837484368571_2_alg».proof.Proof.K.R1Frame
import proofs.«142304_j59837484368571_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of `@main`: two host stretches and two TensorCore regions

`@main` is four segments in order: a host stretch of 2 operations (the transpose of the weight matrix and its
rounding to bf16), region 0 (the partial matrix products, three accumulators), a host stretch of 39 operations (the
two halves added, `tanh`, the three products with the row vector, their concatenation and the softmax over the three
rows, the three rows sliced out) and region 1 (the weighted sum of the three inputs).

The buffer contents at each boundary are a fold from the launch memory: a host stretch's `StableHlo.after`; a region's
arrays at what its write-backs leave (`Dat.arrAt … N`) and every other buffer as the region found it. Over these the
four segments chain, and the launch theorem for several regions gives, at once, termination, the value of the result
buffer (`W4` at `main_v39`) and the five argument arrays unchanged.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references: what region 0's proof data take. -/
abbrev V1 : (c : Dev nD) → (b : Ref sig .tc) → Buf (Elt F) ((c : Thread nD τ).loc b) := fun c b => W1 m ρ c b
/-- At region 0's exit: its arrays at what the pipeline leaves (an input as entered, an output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references: what region 1's proof data take. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument; a region reads `main_arg0`, `main_arg1`, `main_arg2` through input windows
(an input array is never written back) and stages `main_arg3`, `main_arg4` through no window at all. So the fold at
an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ### What a value proof reads off the fold -/

/-- The result buffer at the end is region 1's output array with every write-back folded in. -/
theorem W4_main_v39 (c : Dev nD) : W4 m ρ c (Proc.devRef .tc main_v39) = (dat1 (V3 m ρ) c).arrAt 6 cfg1.N := W4_arr m ρ c 6
/-- Region 1 is entered from the second host stretch run on region 0's exit contents. -/
theorem V3_eq : V3 m ρ = fun c b => StableHlo.after hostOps1 (W2 m ρ c) (Proc.devRef .tc b) := rfl
/-- Region 0's three outputs at its exit: each output array with every write-back folded in. -/
theorem W2_main_v2_0 (c : Dev nD) : W2 m ρ c (Proc.devRef .tc main_v2_0) = (dat0 (V1 m ρ) c).arrAt 4 cfg0.N := W2_arr m ρ c 4
theorem W2_main_v2_1 (c : Dev nD) : W2 m ρ c (Proc.devRef .tc main_v2_1) = (dat0 (V1 m ρ) c).arrAt 5 cfg0.N := W2_arr m ρ c 5
theorem W2_main_v2_2 (c : Dev nD) : W2 m ρ c (Proc.devRef .tc main_v2_2) = (dat0 (V1 m ρ) c).arrAt 6 cfg0.N := W2_arr m ρ c 6
/-- Region 0 is entered from the first host stretch run on the launch memory. -/
theorem V1_eq : V1 m ρ = fun c b => StableHlo.after hostOps0 (fun b' => m ((c : Dev nD), b')) (Proc.devRef .tc b) := rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are split
    out of the unscoped buffers and put back at the exit contents; the generator register and the scoped buffers no
    window stages (among them the three accumulators) enter the kernel's invariant at the first point (`hin0`) and
    come back from it at the last (`hout0`); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the launch reads
    at the end). Its arrays are split out of the unscoped buffers and put back at the exit contents; the generator
    register and the scoped buffers no window stages pass through the kernel's invariant unread; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: it is the chain of its four items, and so is the segments' run. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state has the result buffer at the fold's last contents
    `W4` and the five argument arrays as launched: the launch theorem for several regions over the segments, the last
    thread state read against the final state, each argument walked back through the fold. -/
theorem run_all : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c)⟩)

/-- THE FRAME: the run, keeping only that the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_all m ρ)

/-- info: 'Cert.Kernel.Hand.run_all' depends on axioms: [propext, Classical.choice, Quot.sound] -/
#guard_msgs in #print axioms run_all

end Cert.Kernel.Hand

end
-- ==== Proof.KI.R0Runs.lean ====
import proofs.«142304_j59837484368571_2_alg».proof.Proof.Gen.KernelIdeal.Launch
import proofs.«142304_j59837484368571_2_alg».proof.Proof.Gen.KernelIdeal.Skeleton
import proofs.«142304_j59837484368571_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel region (the partial products over the two halves of the contracted axis), at the contents
    `V` the region is entered with: what its three cases share.

The grid is 2 × 25: point `t` is step `t % 25` of core-half `t / 25`. At step 0 the three accumulators are zeroed, at
every step the product of the step's rows is added to each, at step 24 the accumulators are copied to the outputs. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched there or
    not, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched there or
    not, for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, fetched there or
    not, for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, fetched there or
    not, for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is a core's first step": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is a core's last step": the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- In the case "first accumulation step of a core" output 4 is idle: nothing is stored into it and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- The same in the case "a middle accumulation step". -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- In the case "last accumulation step of a core" output 4 is live: the accumulator is stored into it. -/
theorem liveAt0_4_C : ∀ t : Fin cfg0.N, ¬cond0_0 (grid0.coords t) → cond0_1 (grid0.coords t) → cfg0.idle 4 (grid0.coords t) = false := by decide +kernel

/-- In the case "first accumulation step of a core" output 5 is idle: nothing is stored into it and it is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- The same in the case "a middle accumulation step". -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- In the case "last accumulation step of a core" output 5 is live: the accumulator is stored into it. -/
theorem liveAt0_5_C : ∀ t : Fin cfg0.N, ¬cond0_0 (grid0.coords t) → cond0_1 (grid0.coords t) → cfg0.idle 5 (grid0.coords t) = false := by decide +kernel

/-- In the case "first accumulation step of a core" output 6 is idle: nothing is stored into it and it is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- The same in the case "a middle accumulation step". -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- In the case "last accumulation step of a core" output 6 is live: the accumulator is stored into it. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_4 : View sig .tc .vmem S1x256x256 .f32 := (Memref.whole cc0_stg4_0 : Memref sig .tc .vmem S1x256x256 .f32).view
abbrev VO0_5 : View sig .tc .vmem S1x256x256 .f32 := (Memref.whole cc0_stg5_0 : Memref sig .tc .vmem S1x256x256 .f32).view
abbrev VO0_6 : View sig .tc .vmem S1x256x256 .f32 := (Memref.whole cc0_stg6_0 : Memref sig .tc .vmem S1x256x256 .f32).view
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
/-- The three accumulators: whole scoped buffers of the kernel's own. -/
abbrev scM0_0 : Memref sig .tc .vmem S256x256 .f32 := Memref.whole cc0_scratch0
abbrev scM0_1 : Memref sig .tc .vmem S256x256 .f32 := Memref.whole cc0_scratch1
abbrev scM0_2 : Memref sig .tc .vmem S256x256 .f32 := Memref.whole cc0_scratch2
abbrev VS0_0 : View sig .tc .vmem S256x256 .f32 := scM0_0.view
abbrev VS0_1 : View sig .tc .vmem S256x256 .f32 := scM0_1.view
abbrev VS0_2 : View sig .tc .vmem S256x256 .f32 := scM0_2.view

/-- The scoped buffers of the core that this region neither stages nor uses (the second region's staging buffers), each
    whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's plain invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA Rest0; rw [scopedRest0_eq]; simp only [scM0_0, scM0_1, scM0_2, owns_whole]; try rfl

end Cert.KernelIdeal.Hand

end
-- ==== Proof.KI.R0RunA.lean ====
import proofs.«142304_j59837484368571_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a core's FIRST step (the accumulators are zeroed, then the step's products added; nothing is stored to the outputs, which are handed back untouched): the pieces each output and each accumulator ends with (last store first), with the proof
    that from whole memrefs at the stated contents the body runs to its return leaving the inputs as they were and those
    pieces written. -/
noncomputable def kernelRun0_A (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i)
    (x0 : Vec F S2000x256 .bf16) (x1 : Vec F S2000x256 .f32) (x2 : Vec F S2000x256 .f32) (x3 : Vec F S2000x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (xi4 xi5 xi6 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.R0RunB.lean ====
import proofs.«142304_j59837484368571_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a MIDDLE step (the step's products are added to the accumulators, found at the contents the step before left; the outputs are handed back untouched): the pieces each output and each accumulator ends with (last store first), with the proof
    that from whole memrefs at the stated contents the body runs to its return leaving the inputs as they were and those
    pieces written. -/
noncomputable def kernelRun0_B (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i)
    (x0 : Vec F S2000x256 .bf16) (x1 : Vec F S2000x256 .f32) (x2 : Vec F S2000x256 .f32) (x3 : Vec F S2000x256 .f32) (xs0 : Vec F S256x256 .f32) (xs1 : Vec F S256x256 .f32) (xs2 : Vec F S256x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (xi4 xi5 xi6 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.R0RunC.lean ====
import proofs.«142304_j59837484368571_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a core's LAST step (the step's products are added to the accumulators, which are then copied to the three outputs): the pieces each output and each accumulator ends with (last store first), with the proof
    that from whole memrefs at the stated contents the body runs to its return leaving the inputs as they were and those
    pieces written. -/
noncomputable def kernelRun0_C (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i)
    (x0 : Vec F S2000x256 .bf16) (x1 : Vec F S2000x256 .f32) (x2 : Vec F S2000x256 .f32) (x3 : Vec F S2000x256 .f32) (xs0 : Vec F S256x256 .f32) (xs1 : Vec F S256x256 .f32) (xs2 : Vec F S256x256 .f32) :
    Σ' (L4 : List (View.Piece (Elt F) S1x256x256 .f32)) (L5 : List (View.Piece (Elt F) S1x256x256 .f32)) (L6 : List (View.Piece (Elt F) S1x256x256 .f32))
      (LS0 : List (View.Piece (Elt F) S256x256 .f32)) (LS1 : List (View.Piece (Elt F) S256x256 .f32)), { LS2 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__matmul_partial_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__matmul_partial_kernel_eq_skeleton]; unfold cc0__matmul_partial_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.KI.R0Frame.lean ====
import proofs.«142304_j59837484368571_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel region: what each case leaves, the accumulation point by point, the proof data and the body
    obligation, at the contents `V` the region is entered with. -/

/-! ## The stores of each case cover the buffers they are read back from -/

theorem scover0_A_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S256x256.size (by sl_kernel_rfl) y
theorem scover0_A_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S256x256.size (by sl_kernel_rfl) y
theorem scover0_A_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : cond0_0 i} {hc1 : ¬cond0_1 i} {x0 : Vec F S2000x256 .bf16} {x1 : Vec F S2000x256 .f32} {x2 : Vec F S2000x256 .f32} {x3 : Vec F S2000x256 .f32} (y : S256x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S256x256.size (by sl_kernel_rfl) y
theorem scover0_B_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S256x256.size (by sl_kernel_rfl) y
theorem scover0_B_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S256x256.size (by sl_kernel_rfl) y
theorem scover0_B_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : ¬cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S256x256.size (by sl_kernel_rfl) y
theorem scover0_C_0 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S256x256.size (by sl_kernel_rfl) y
theorem scover0_C_1 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S256x256.size (by sl_kernel_rfl) y
theorem scover0_C_2 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S256x256.size (by sl_kernel_rfl) y
theorem cover0_C_4 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1x256x256.size (by sl_kernel_rfl) y
theorem cover0_C_5 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1x256x256.size (by sl_kernel_rfl) y
theorem cover0_C_6 (c : Dev nD) {i : grid0.Coords} {arg2 : Memref sig .tc .vmem S2000x256 .bf16} {harg2 : arg2.IsWhole} {arg3 : Memref sig .tc .vmem S2000x256 .f32} {harg3 : arg3.IsWhole} {arg4 : Memref sig .tc .vmem S2000x256 .f32} {harg4 : arg4.IsWhole} {arg5 : Memref sig .tc .vmem S2000x256 .f32} {harg5 : arg5.IsWhole} {arg6 : Memref sig .tc .vmem S1x256x256 .f32} {harg6 : arg6.IsWhole} {arg7 : Memref sig .tc .vmem S1x256x256 .f32} {harg7 : arg7.IsWhole} {arg8 : Memref sig .tc .vmem S1x256x256 .f32} {harg8 : arg8.IsWhole} {arg9 : Memref sig .tc .vmem S256x256 .f32} {harg9 : arg9.IsWhole} {arg10 : Memref sig .tc .vmem S256x256 .f32} {harg10 : arg10.IsWhole} {arg11 : Memref sig .tc .vmem S256x256 .f32} {harg11 : arg11.IsWhole} {hc0 : ¬cond0_0 i} {hc1 : cond0_1 i} {x0 : Vec F S2000x256 .bf16} {x1 : Vec F S2000x256 .f32} {x2 : Vec F S2000x256 .f32} {x3 : Vec F S2000x256 .f32} {xs0 : Vec F S256x256 .f32} {xs1 : Vec F S256x256 .f32} {xs2 : Vec F S256x256 .f32} (y : S1x256x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1x256x256.size (by sl_kernel_rfl) y

/-- The three outputs' buffers and the three accumulators, in that order. -/
abbrev Tup0 (F : FTy → Type) [FloatOps F] : Type :=
  Vec F S1x256x256 .f32 × Vec F S1x256x256 .f32 × Vec F S1x256x256 .f32 × Vec F S256x256 .f32 × Vec F S256x256 .f32 × Vec F S256x256 .f32

/-- What the case leaves at point `t`: the three outputs' buffers, then the three accumulators, each its pieces read back. -/
def tupA (c : Dev nD) (t : Fin cfg0.N) (hc0 : cond0_0 (grid0.coords t)) (hc1 : ¬cond0_1 (grid0.coords t)) : Tup0 F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).1),
   VO0_5.read (Elt F) (VO0_5.writes (Elt F) VO0_5.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.1),
   VO0_6.read (Elt F) (VO0_6.writes (Elt F) VO0_6.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.1),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)).2.2.2.2.2.1))

/-- What the case leaves at point `t`: the three outputs' buffers, then the three accumulators, each its pieces read back. -/
def tupB (c : Dev nD) (t : Fin cfg0.N) (hc0 : ¬cond0_0 (grid0.coords t)) (hc1 : ¬cond0_1 (grid0.coords t)) (xs0 xs1 xs2 : Vec F S256x256 .f32) : Tup0 F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).1),
   VO0_5.read (Elt F) (VO0_5.writes (Elt F) VO0_5.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.1),
   VO0_6.read (Elt F) (VO0_6.writes (Elt F) VO0_6.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.1),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.2.1))

/-- What the case leaves at point `t`: the three outputs' buffers, then the three accumulators, each its pieces read back. -/
def tupC (c : Dev nD) (t : Fin cfg0.N) (hc0 : ¬cond0_0 (grid0.coords t)) (hc1 : cond0_1 (grid0.coords t)) (xs0 xs1 xs2 : Vec F S256x256 .f32) : Tup0 F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).1),
   VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.1),
   VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2).2.2.2.2.2.1))

/-! ## The accumulation -/

/-- What the outputs' buffers and the accumulators hold after the body at position `n`: the case the position is in
    (first step of a core: `n % 25 = 0`; last: `n % 25 = 24`; otherwise a middle step), run on the point's blocks, the
    accumulators found at what position `n - 1` left. -/
def outsAt0 (c : Dev nD) : (n : ℕ) → n < cfg0.N → Tup0 F
  | 0, hn => tupA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      if h1 : (n + 1) % 25 = 24 then
        False.elim (by omega)
      else
        tupA V c ⟨n + 1, hn⟩ ((hcond0_0 ⟨n + 1, hn⟩).mpr h0) (fun h => h1 ((hcond0_1 ⟨n + 1, hn⟩).mp h))
    else
      if h1 : (n + 1) % 25 = 24 then
        tupC V c ⟨n + 1, hn⟩ (fun h => h0 ((hcond0_0 ⟨n + 1, hn⟩).mp h)) ((hcond0_1 ⟨n + 1, hn⟩).mpr h1) (outsAt0 c n (Nat.lt_of_succ_lt hn)).2.2.2.1 (outsAt0 c n (Nat.lt_of_succ_lt hn)).2.2.2.2.1 (outsAt0 c n (Nat.lt_of_succ_lt hn)).2.2.2.2.2
      else
        tupB V c ⟨n + 1, hn⟩ (fun h => h0 ((hcond0_0 ⟨n + 1, hn⟩).mp h)) (fun h => h1 ((hcond0_1 ⟨n + 1, hn⟩).mp h)) (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 25 = 0) (h1 : ¬t.val % 25 = 24) :
    outsAt0 V c t.val t.isLt = tupA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = tupB V c t (fun h => h0 ((hcond0_0 t).mp h)) (fun h => h1 ((hcond0_1 t).mp h)) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = tupC V c t (fun h => h0 ((hcond0_0 t).mp h)) ((hcond0_1 t).mpr h1) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried between points -/

/-- Before the first point the region's plain invariant; afterwards the three accumulators at what the point before left
    in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.2.2.1 ∗ owns (c : Thread nD τ) scM0_1 fullShare (outsAt0 V c (n - 1) (by omega)).2.2.2.2.1 ∗ owns (c : Thread nD τ) scM0_2 fullShare (outsAt0 V c (n - 1) (by omega)).2.2.2.2.2 ∗ Rest0 c) ∗ (∃ r, prngReg c r)) := by
  cases n with
  | zero => exact absurd rfl hz
  | succ n => rfl

/-! ## The proof data -/

/-- The region's proof data on core `c`: the arrays as the region finds them; after the body at point `t` each input's
    buffer at its block, each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
/-- The body at any point. The inputs' buffers hold their blocks; the closed forms say which case the point is in; the
    invariant hands the body the accumulators at what the point before left (at anything before the first point) and
    takes them back at this point's contents; an idle output is handed back untouched; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · -- a core's first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold tupA; (try dsimp only)
      by_cases hz : t.val = 0
      · rw [PhiS_castSucc V c t, PhiS_zero V c _ _ hz, PhiA0_eq]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_A_0 c)
            isplitl [HS1]
            · unfold owns; iexists _; isplitr
              swap; · iexact HS1
              ipureintro; exact View.read_writes_of_cover _ _ _ _ _ (scover0_A_1 c)
            isplitl [HS2]
            · unfold owns; iexists _; isplitr
              swap; · iexact HS2
              ipureintro; exact View.read_writes_of_cover _ _ _ _ _ (scover0_A_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_A_0 c)
            isplitl [HS1]
            · unfold owns; iexists _; isplitr
              swap; · iexact HS1
              ipureintro; exact View.read_writes_of_cover _ _ _ _ _ (scover0_A_1 c)
            isplitl [HS2]
            · unfold owns; iexists _; isplitr
              swap; · iexact HS2
              ipureintro; exact View.read_writes_of_cover _ _ _ _ _ (scover0_A_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 25 = 24
    · -- a core's last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold tupC; (try dsimp only)
      have hz : t.val ≠ 0 := by omega
      rw [PhiS_castSucc V c t, PhiS_pos V c _ _ hz]
      · iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_C_0 c)
            isplitl [HS1]
            · unfold owns; iexists _; isplitr
              swap; · iexact HS1
              ipureintro; exact View.read_writes_of_cover _ _ _ _ _ (scover0_C_1 c)
            isplitl [HS2]
            · unfold owns; iexists _; isplitr
              swap; · iexact HS2
              ipureintro; exact View.read_writes_of_cover _ _ _ _ _ (scover0_C_2 c)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c)
        isplitl [H5]
        · unfold owns; iexists _; isplitr
          swap; · iexact H5
          ipureintro; exact View.read_writes_of_cover _ _ _ _ _ (cover0_C_5 c)
        unfold owns; iexists _; isplitr
        swap; · iexact H6
        ipureintro; exact View.read_writes_of_cover _ _ _ _ _ (cover0_C_6 c)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold tupB; (try dsimp only)
      have hz : t.val ≠ 0 := by omega
      rw [PhiS_castSucc V c t, PhiS_pos V c _ _ hz]
      · iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0]
            · unfold owns; iexists _; isplitr
              swap; · iexact HS0
              ipureintro; exact View.read_writes_of_cover _ _ _ _ _ (scover0_B_0 c)
            isplitl [HS1]
            · unfold owns; iexists _; isplitr
              swap; · iexact HS1
              ipureintro; exact View.read_writes_of_cover _ _ _ _ _ (scover0_B_1 c)
            isplitl [HS2]
            · unfold owns; iexists _; isplitr
              swap; · iexact HS2
              ipureintro; exact View.read_writes_of_cover _ _ _ _ _ (scover0_B_2 c)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.R1Frame.lean ====
import proofs.«142304_j59837484368571_2_alg».proof.Proof.Gen.KernelIdeal.Launch
import proofs.«142304_j59837484368571_2_alg».proof.Proof.Gen.KernelIdeal.Skeleton
import proofs.«142304_j59837484368571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the fused weighted sum), class-A half at a parameter entry valuation

The second TensorCore region of `@main` runs `cc1__fuse_kernel` over a grid of 25 points. Its pipeline has seven
windows: three row blocks of 4000 rows (inputs 0, 1, 2, one block per point), three `1 × 256` weight rows (inputs
3, 4, 5, the same block at every point, fetched once) and one output row block (window 6, written back at every
point). At each point the body reads all six input buffers whole and stores, whole,
`w₃ · x₀ + w₄ · x₁ + w₅ · x₂` (the weights broadcast along the rows) into the output buffer.

Everything is stated at a PARAMETER `V`: the TensorCore's buffer contents when the region is entered.
-/

-- membership in a rectangle of 4000 × 256 indices: the elaborator's structural look recurses once per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is
    `V`'s (`hA`) and whose body leaves the block in place (`hafter`); the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for ANY proof data whose array is
    `V`'s (`hA`) and whose body leaves the block in place (`hafter`); the window is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for ANY proof data whose array is
    `V`'s (`hA`) and whose body leaves the block in place (`hafter`); the window is fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for ANY proof data whose array is
    `V`'s (`hA`) and whose body leaves the block in place (`hafter`); the window's block index is constant, so where it is not fetched the buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for ANY proof data whose array is
    `V`'s (`hA`) and whose body leaves the block in place (`hafter`); the window's block index is constant, so where it is not fetched the buffer still holds the same block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for ANY proof data whose array is
    `V`'s (`hA`) and whose body leaves the block in place (`hafter`); the window's block index is constant, so where it is not fetched the buffer still holds the same block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a row block, and the whole of a weight row: every load and the one store of the body go through one
    of these two. -/
abbrev r1_0 : Rect S4000x256 := Rect.unit (s := S4000x256) ![0, 0] S4000x256.size inb_S4000x256_S4000x256_0_0
abbrev r1_1 : Rect S1x256 := Rect.unit (s := S1x256) ![0, 0] S1x256.size inb_S1x256_S1x256_0_0

/-! ## What the body leaves in the output window's buffer -/

/-- Window 6's staging buffer after the body, from the six input windows' blocks: its one store as a piece. The
    payload takes, in this order, weight 3, block 0, weight 4, block 1, weight 5, block 2. -/
def out1_6 (x0 x1 x2 : Vec F S4000x256 .f32) (x3 x4 x5 : Vec F S1x256 .f32) : Vec F S4000x256 .f32 :=
  View.canon [⟨r1_0, k1_pay1 (View.ld x3 r1_1) (View.ld x0 r1_0) (View.ld x4 r1_1) (View.ld x1 r1_0) (View.ld x5 r1_1) (View.ld x2 r1_0)⟩]

/-- The one store covers the buffer (checked by evaluation). -/
theorem cover1_6 (p0 : Vec F S4000x256 .f32) (y : S4000x256.Idx) :
    ∃ pc ∈ ([⟨r1_0, p0⟩] : List (View.Piece (Elt F) S4000x256 .f32)), y ∈ pc.1.set :=
  View.cover_of_tiled [⟨r1_0, p0⟩] S4000x256.size (by rfl) y

/-! ## The body's triple -/

set_option maxHeartbeats 1000000 in
/-- The kernel body on whole staging memrefs, the six inputs' at read contents `x0 … x5` and the output's at anything,
    runs to the continuation holding the inputs' as they were and the output's at `out1_6` of the inputs'. The body
    also loads the output buffer before storing it; the value read is not used. -/
theorem sound_kernel1 (c : Dev nD) (E : Set ℕ) (i : grid1.Coords)
    (arg1 : Memref sig .tc .vmem S4000x256 .f32) (harg1 : arg1.IsWhole) (arg2 : Memref sig .tc .vmem S4000x256 .f32) (harg2 : arg2.IsWhole)
    (arg3 : Memref sig .tc .vmem S4000x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S4000x256 .f32) (harg7 : arg7.IsWhole)
    (x0 x1 x2 : Vec F S4000x256 .f32) (x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__fuse_kernel i arg1 harg1 arg2 harg2 arg3 harg3 arg4 harg4 arg5 harg5 arg6 harg6 arg7 harg7) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«142304_j59837484368571_2_alg».proof.Proof.KI.R0Frame
import proofs.«142304_j59837484368571_2_alg».proof.Proof.KI.R1Frame
import proofs.«142304_j59837484368571_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of `@main`: two host stretches and two TensorCore regions

`@main` is four segments in order: a host stretch of 2 operations (the transpose of the weight matrix and its
rounding to bf16), region 0 (the partial matrix products, three accumulators), a host stretch of 39 operations (the
two halves added, `tanh`, the three products with the row vector, their concatenation and the softmax over the three
rows, the three rows sliced out) and region 1 (the weighted sum of the three inputs).

The buffer contents at each boundary are a fold from the launch memory: a host stretch's `StableHlo.after`; a region's
arrays at what its write-backs leave (`Dat.arrAt … N`) and every other buffer as the region found it. Over these the
four segments chain, and the launch theorem for several regions gives, at once, termination, the value of the result
buffer (`W4` at `main_v39`) and the five argument arrays unchanged.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references: what region 0's proof data take. -/
abbrev V1 : (c : Dev nD) → (b : Ref sig .tc) → Buf (Elt F) ((c : Thread nD τ).loc b) := fun c b => W1 m ρ c b
/-- At region 0's exit: its arrays at what the pipeline leaves (an input as entered, an output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references: what region 1's proof data take. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument; a region reads `main_arg0`, `main_arg1`, `main_arg2` through input windows
(an input array is never written back) and stages `main_arg3`, `main_arg4` through no window at all. So the fold at
an argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ### What a value proof reads off the fold -/

/-- The result buffer at the end is region 1's output array with every write-back folded in. -/
theorem W4_main_v39 (c : Dev nD) : W4 m ρ c (Proc.devRef .tc main_v39) = (dat1 (V3 m ρ) c).arrAt 6 cfg1.N := W4_arr m ρ c 6
/-- Region 1 is entered from the second host stretch run on region 0's exit contents. -/
theorem V3_eq : V3 m ρ = fun c b => StableHlo.after hostOps1 (W2 m ρ c) (Proc.devRef .tc b) := rfl
/-- Region 0's three outputs at its exit: each output array with every write-back folded in. -/
theorem W2_main_v2_0 (c : Dev nD) : W2 m ρ c (Proc.devRef .tc main_v2_0) = (dat0 (V1 m ρ) c).arrAt 4 cfg0.N := W2_arr m ρ c 4
theorem W2_main_v2_1 (c : Dev nD) : W2 m ρ c (Proc.devRef .tc main_v2_1) = (dat0 (V1 m ρ) c).arrAt 5 cfg0.N := W2_arr m ρ c 5
theorem W2_main_v2_2 (c : Dev nD) : W2 m ρ c (Proc.devRef .tc main_v2_2) = (dat0 (V1 m ρ) c).arrAt 6 cfg0.N := W2_arr m ρ c 6
/-- Region 0 is entered from the first host stretch run on the launch memory. -/
theorem V1_eq : V1 m ρ = fun c b => StableHlo.after hostOps0 (fun b' => m ((c : Dev nD), b')) (Proc.devRef .tc b) := rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are split
    out of the unscoped buffers and put back at the exit contents; the generator register and the scoped buffers no
    window stages (among them the three accumulators) enter the kernel's invariant at the first point (`hin0`) and
    come back from it at the last (`hout0`); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the launch reads
    at the end). Its arrays are split out of the unscoped buffers and put back at the exit contents; the generator
    register and the scoped buffers no window stages pass through the kernel's invariant unread; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: it is the chain of its four items, and so is the segments' run. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state has the result buffer at the fold's last contents
    `W4` and the five argument arrays as launched: the launch theorem for several regions over the segments, the last
    thread state read against the final state, each argument walked back through the fold. -/
theorem run_all : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c)⟩)

/-- THE FRAME: the run, keeping only that the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_all m ρ)

/-- info: 'Cert.KernelIdeal.Hand.run_all' depends on axioms: [propext, Classical.choice, Quot.sound] -/
#guard_msgs in #print axioms run_all

end Cert.KernelIdeal.Hand

end
-- ==== Proof.KI.R1Value.lean ====
import proofs.«142304_j59837484368571_2_alg».proof.Proof.KI.R1Frame
import Idealize.ShloMosaic.Lib.Pipeline.Value
import Idealize.ShloMosaic.Lib.ValueIdx
import Idealize.ShloMosaic.Lib.Tactic

/-!
# Region 1: the output array as one function of the entry valuation

After the fused region has run, row `n`, column `j` of its output array holds
`(w₃ j · a₀ n j + w₄ j · a₁ n j) + w₅ j · a₂ n j`, where `a₀, a₁, a₂` are the three `100000 × 256` input arrays and
`w₃, w₄, w₅` the three `1 × 256` weight rows, all as the region finds them. Grid point `t` writes rows
`4000 t … 4000 t + 3999`; the 25 points' blocks tile the array.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-! ## The payload at an index -/

/-- A weight row broadcast along the rows reads, at row `p` and column `q`, the weight of column `q`. -/
theorem weight_row_apply (w : Vec Ideal S1x256 .f32) (p : Fin 4000) (q : Fin 256) :
    broadcastTo S4000x256 w broadcasts_S1x256_S4000x256 (ix2 p q) = w (ix2 0 q) :=
  broadcastTo_apply w broadcasts_S1x256_S4000x256 (ix2 p q) (ix2 0 q) fun a => by
    match a with
    | ⟨0, _⟩ => rfl
    | ⟨1, _⟩ => rfl

/-- The stored value at row `p`, column `q` of a block: the three blocks' entries weighted by the column's three
    weights and added left to right. -/
theorem fuse_apply (w3 : Vec Ideal S1x256 .f32) (x0 : Vec Ideal S4000x256 .f32) (w4 : Vec Ideal S1x256 .f32) (x1 : Vec Ideal S4000x256 .f32)
    (w5 : Vec Ideal S1x256 .f32) (x2 : Vec Ideal S4000x256 .f32) (p : Fin 4000) (q : Fin 256) :
    k1_pay1 w3 x0 w4 x1 w5 x2 (ix2 p q)
      = (w3 (ix2 0 q) * x0 (ix2 p q) + w4 (ix2 0 q) * x1 (ix2 p q)) + w5 (ix2 0 q) * x2 (ix2 p q) := by
  unfold k1_pay1
  simp only [shapeCast_self]
  rw [addf_apply, addf_apply, mulf_apply, mulf_apply, mulf_apply, weight_row_apply, weight_row_apply, weight_row_apply]

/-! ## The result as one function of the arrays -/

/-- Row `n`, column `j` of the weighted sum of three arrays `a₀, a₁, a₂` by three weight rows `w₃, w₄, w₅`. -/
def weighted (w3 w4 w5 : S1x256.Idx → EReal) (a0 a1 a2 : S100000x256.Idx → EReal) (n : Fin 100000) (j : Fin 256) : EReal :=
  (w3 (ix2 0 j) * a0 (ix2 n j) + w4 (ix2 0 j) * a1 (ix2 n j)) + w5 (ix2 0 j) * a2 (ix2 n j)

theorem weighted_apply (w3 w4 w5 : S1x256.Idx → EReal) (a0 a1 a2 : S100000x256.Idx → EReal) (n : Fin 100000) (j : Fin 256) :
    weighted w3 w4 w5 a0 a1 a2 n j = (w3 (ix2 0 j) * a0 (ix2 n j) + w4 (ix2 0 j) * a1 (ix2 n j)) + w5 (ix2 0 j) * a2 (ix2 n j) := rfl

/-- The result array: the weighted sum of the region's three input arrays by its three weight rows, all as the region
    finds them. -/
def fused (c : Dev nD) : S100000x256.Idx → EReal := fun i =>
  weighted (V c main_v36) (V c main_v37) (V c main_v38) (V c main_arg0) (V c main_arg1) (V c main_arg2) (i 0) (i 1)

theorem fused_apply (c : Dev nD) (n : Fin 100000) (j : Fin 256) :
    fused V c (ix2 n j) = weighted (V c main_v36) (V c main_v37) (V c main_v38) (V c main_arg0) (V c main_arg1) (V c main_arg2) n j := rfl

/-! ## The index maps, decided over the 25 grid points -/

/-- A row-block window (0, 1, 2 and the output 6) is at block `t` along the rows and block 0 along the columns at
    point `t`; a weight window (3, 4, 5) is at block (0, 0) at every point. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## The input blocks as entries of the arrays -/

/-- Row `p` of input window 0's block at point `t` is row `4000 t + p` of its array. -/
theorem iblk1_0_apply (c : Dev nD) (t : Fin cfg1.N) (p : Fin 4000) (q : Fin 256) (n : Fin 100000) (hn : n.val = 4000 * t.val + p.val) :
    (iblk1 V c 0 t : Vec Ideal S4000x256 .f32) (ix2 p q) = (V c main_arg0 : S100000x256.Idx → EReal) (ix2 n q) := by
  obtain ⟨h0, h1⟩ := (index_facts t).1
  unfold iblk1
  rw [View.read_apply]
  show V c main_arg0 _ = V c main_arg0 _
  refine congrArg _ (funext fun a => Fin.ext ?_)
  match a with
  | ⟨0, _⟩ => show win1_0.index t (0 : Fin 2) * 4000 + 1 * p.val = n.val; omega
  | ⟨1, _⟩ => show win1_0.index t (1 : Fin 2) * 256 + 1 * q.val = q.val; omega

/-- Row `p` of input window 1's block at point `t` is row `4000 t + p` of its array. -/
theorem iblk1_1_apply (c : Dev nD) (t : Fin cfg1.N) (p : Fin 4000) (q : Fin 256) (n : Fin 100000) (hn : n.val = 4000 * t.val + p.val) :
    (iblk1 V c 1 t : Vec Ideal S4000x256 .f32) (ix2 p q) = (V c main_arg1 : S100000x256.Idx → EReal) (ix2 n q) := by
  obtain ⟨h0, h1⟩ := (index_facts t).2.1
  unfold iblk1
  rw [View.read_apply]
  show V c main_arg1 _ = V c main_arg1 _
  refine congrArg _ (funext fun a => Fin.ext ?_)
  match a with
  | ⟨0, _⟩ => show win1_1.index t (0 : Fin 2) * 4000 + 1 * p.val = n.val; omega
  | ⟨1, _⟩ => show win1_1.index t (1 : Fin 2) * 256 + 1 * q.val = q.val; omega

/-- Row `p` of input window 2's block at point `t` is row `4000 t + p` of its array. -/
theorem iblk1_2_apply (c : Dev nD) (t : Fin cfg1.N) (p : Fin 4000) (q : Fin 256) (n : Fin 100000) (hn : n.val = 4000 * t.val + p.val) :
    (iblk1 V c 2 t : Vec Ideal S4000x256 .f32) (ix2 p q) = (V c main_arg2 : S100000x256.Idx → EReal) (ix2 n q) := by
  obtain ⟨h0, h1⟩ := (index_facts t).2.2.1
  unfold iblk1
  rw [View.read_apply]
  show V c main_arg2 _ = V c main_arg2 _
  refine congrArg _ (funext fun a => Fin.ext ?_)
  match a with
  | ⟨0, _⟩ => show win1_2.index t (0 : Fin 2) * 4000 + 1 * p.val = n.val; omega
  | ⟨1, _⟩ => show win1_2.index t (1 : Fin 2) * 256 + 1 * q.val = q.val; omega

/-- Weight window 3's block at any point is its whole array. -/
theorem iblk1_3_apply (c : Dev nD) (t : Fin cfg1.N) (q : Fin 256) :
    (iblk1 V c 3 t : Vec Ideal S1x256 .f32) (ix2 0 q) = (V c main_v36 : S1x256.Idx → EReal) (ix2 0 q) := by
  obtain ⟨h0, h1⟩ := (index_facts t).2.2.2.1
  unfold iblk1
  rw [View.read_apply]
  show V c main_v36 _ = V c main_v36 _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- Weight window 4's block at any point is its whole array. -/
theorem iblk1_4_apply (c : Dev nD) (t : Fin cfg1.N) (q : Fin 256) :
    (iblk1 V c 4 t : Vec Ideal S1x256 .f32) (ix2 0 q) = (V c main_v37 : S1x256.Idx → EReal) (ix2 0 q) := by
  obtain ⟨h0, h1⟩ := (index_facts t).2.2.2.2.1
  unfold iblk1
  rw [View.read_apply]
  show V c main_v37 _ = V c main_v37 _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- Weight window 5's block at any point is its whole array. -/
theorem iblk1_5_apply (c : Dev nD) (t : Fin cfg1.N) (q : Fin 256) :
    (iblk1 V c 5 t : Vec Ideal S1x256 .f32) (ix2 0 q) = (V c main_v38 : S1x256.Idx → EReal) (ix2 0 q) := by
  obtain ⟨h0, h1⟩ := (index_facts t).2.2.2.2.2.1
  unfold iblk1
  rw [View.read_apply]
  show V c main_v38 _ = V c main_v38 _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

/-! ## What a point writes back -/

/-- Point `t` writes back block `t` of the result. -/
theorem flushed6_eq (c : Dev nD) (t : Fin cfg1.N) :
    (dat1 V c).flushed 6 t = ((cfg1.win 6).blk t).view.read (Elt Ideal) (fused V c) := by
  show (cfg1.win 6).cut (grid1.coords t) ((dat1 V c).after 6 t) = _
  rw [after1_6]
  unfold out1_6
  rw [View.canon_unit_zero zero_offsets]
  simp only [View.ld_unit_zero (S := S4000x256) zero_offsets, View.ld_unit_zero (S := S1x256) zero_offsets]
  funext y
  obtain ⟨p, q, rfl⟩ : ∃ (p : Fin 4000) (q : Fin 256), y = ix2 p q := ⟨y 0, y 1, eq_ix2 y⟩
  have ht : t.val < 25 := Nat.lt_of_lt_of_eq t.isLt N_1
  obtain ⟨h0, h1⟩ := (index_facts t).2.2.2.2.2.2
  have hn : 4000 * t.val + p.val < 100000 := by have := p.isLt; omega
  refine (fuse_apply _ _ _ _ _ _ p q).trans ?_
  rw [iblk1_0_apply V c t p q ⟨_, hn⟩ rfl, iblk1_1_apply V c t p q ⟨_, hn⟩ rfl, iblk1_2_apply V c t p q ⟨_, hn⟩ rfl,
    iblk1_3_apply V c t q, iblk1_4_apply V c t q, iblk1_5_apply V c t q, View.read_apply]
  refine (fused_apply V c ⟨_, hn⟩ q).symm.trans (congrArg (fused V c) (funext fun a => Fin.ext ?_))
  match a with
  | ⟨0, _⟩ => show 4000 * t.val + p.val = win1_6.index t (0 : Fin 2) * 4000 + 1 * p.val; omega
  | ⟨1, _⟩ => show q.val = win1_6.index t (1 : Fin 2) * 256 + 1 * q.val; omega

/-! ## The blocks tile the array -/

/-- An index of the array is in point `t`'s block iff each coordinate is in the block's range on its axis. -/
theorem mem_blk6 (t : Fin cfg1.N) (i : S100000x256.Idx) :
    i ∈ ((cfg1.win 6).blk t).view.set ↔ ∀ a : Fin 2, win1_6.index t a * S4000x256.size a ≤ (i a).val ∧ (i a).val < win1_6.index t a * S4000x256.size a + S4000x256.size a := by
  show i ∈ ((View.whole main_v39).slice (win1_6.rect t)).set ↔ _
  rw [View.set_slice_whole, Rect.mem_set_unit]
  exact Iff.rfl

/-- Row `r` lies in the block of point `r / 4000`. -/
theorem covered6 (i : S100000x256.Idx) : ∃ t : Fin cfg1.N, (cfg1.win 6).flush t = true ∧ i ∈ ((cfg1.win 6).blk t).view.set := by
  have hi0 : (i 0).val < 100000 := (i 0).isLt
  have hi1 : (i 1).val < 256 := (i 1).isLt
  have hlt : (i 0).val / 4000 < cfg1.N := Nat.lt_of_lt_of_eq (by omega) N_1.symm
  obtain ⟨t, ht⟩ : ∃ t : Fin cfg1.N, t.val = (i 0).val / 4000 := ⟨⟨_, hlt⟩, rfl⟩
  obtain ⟨h0, h1⟩ := (index_facts t).2.2.2.2.2.2
  refine ⟨t, flush1_6 t, ?_⟩
  rw [mem_blk6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 256 ≤ (i 1).val ∧ (i 1).val < win1_6.index t (1 : Fin 2) * 256 + 256; omega

/-! ## The array after the region -/

/-- The output array after the region is the result array. -/
theorem final1_fun (c : Dev nD) : (dat1 V c).arrAt 6 cfg1.N = fused V c :=
  (dat1 V c).arrAt_eq_of_cover 6 (fused V c) (fun t _ => flushed6_eq V c t) covered6

/-- Entry by entry: row `n`, column `j` of the output array after the region. -/
theorem final1 (c : Dev nD) (n : Fin 100000) (j : Fin 256) :
    ((dat1 V c).arrAt 6 cfg1.N : S100000x256.Idx → EReal) (ix2 n j)
      = weighted (V c main_v36) (V c main_v37) (V c main_v38) (V c main_arg0) (V c main_arg1) (V c main_arg2) n j := by
  rw [final1_fun]
  rfl

end Cert.KernelIdeal.Hand

end
-- ==== Proof.RefValue.lean ====
import proofs.«142304_j59837484368571_2_alg».proof.Proof.Gen.ReferenceIdeal.Read

/-!
The reference program at the ideal instance, read as mathematics.

With `t_k = tanh (W · x_k)` for the three inputs, the reference forms the scores
`[h · t_1; h · t_2; h · t_3]` (three rows of 256), takes the softmax `β` over the three rows
(subtract the column maximum, exponentiate, divide by the column sum), and returns
`out[n, j] = (β[0, j] · x_1[n, j] + β[1, j] · x_2[n, j]) + β[2, j] · x_3[n, j]`.

* `scoreTail` is the part from the three `t_k` and `h` to `β`, as one function.
* `beta_eq`: the reference's `β` is `scoreTail` of the three `tanh (W · x_k)`.
* `dot_apply`: an entry of `W · x` is the sum over the 100000 contracted positions.
* `out_apply`: an entry of the result in terms of `β` and the inputs.
* `run_ref`: the reference's run, its result stated as that function of the arguments.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx (ix2 eq_ix2)

/-- From the three `t_k` (each 256 × 256) and `h` (1 × 256) to the softmax weights (3 × 256):
    the scores `h · t_k` stacked as three rows, minus their column maximum, exponentiated, divided by
    the column sum of the exponentials. -/
def scoreTail (t1 t2 t3 : (⟨S256x256, .f32⟩ : BufTy).Contents (Elt Ideal)) (x4 : (⟨S1x256, .f32⟩ : BufTy).Contents (Elt Ideal)) : (⟨S3x256, .f32⟩ : BufTy).Contents (Elt Ideal) :=
  let v9 : (⟨S3x256, .f32⟩ : BufTy).Contents (Elt Ideal) :=
    concatenate S3x256 0 [⟨S1x256, (Host.dotGeneral (F := Ideal) (φ₁ := .f32) (φ₂ := .f32) dot_S1x256_S256x256_S1x256_1_0_0_1_n_n none (x4) t1)⟩, ⟨S1x256, (Host.dotGeneral (F := Ideal) (φ₁ := .f32) (φ₂ := .f32) dot_S1x256_S256x256_S1x256_1_0_0_1_n_n none (x4) t2)⟩, ⟨S1x256, (Host.dotGeneral (F := Ideal) (φ₁ := .f32) (φ₂ := .f32) dot_S1x256_S256x256_S1x256_1_0_0_1_n_n none (x4) t3)⟩] concatenates_S1x256_S1x256_S1x256_S3x256_d0
  let v10 : (⟨S256, .f32⟩ : BufTy).Contents (Elt Ideal) :=
    Host.reduce (FloatOps.maximumf (F := Ideal) (φ := .f32)) v9 (constant (F := Ideal) S_ .f32 0xFF800000#32) reducesTo_S3x256_S256_d0 h_S_
  let v12 : (⟨S256, .f32⟩ : BufTy).Contents (Elt Ideal) :=
    maximumf (F := Ideal) (φ := .f32) (broadcastInDim S256 ![] bcast_S_S256 (constant (F := Ideal) S_ .f32 0xFF800000#32)) v10
  let v14 : (⟨S3x256, .f32⟩ : BufTy).Contents (Elt Ideal) :=
    broadcastInDim S3x256 ![0, 1] bcast_S1x256_S3x256_0_1 (broadcastInDim S1x256 ![1] bcast_S256_S1x256_1 v12)
  let v16 : (⟨S3x256, .f32⟩ : BufTy).Contents (Elt Ideal) :=
    Host.exp (F := Ideal) (φ := .f32) (subf (F := Ideal) (φ := .f32) v9 v14)
  let v17 : (⟨S256, .f32⟩ : BufTy).Contents (Elt Ideal) :=
    Host.reduceAdd (F := Ideal) (φ := .f32) v16 (constant (F := Ideal) S_ .f32 0x00000000#32) reducesTo_S3x256_S256_d0 h_S_
  let v19 : (⟨S3x256, .f32⟩ : BufTy).Contents (Elt Ideal) :=
    broadcastInDim S3x256 ![0, 1] bcast_S1x256_S3x256_0_1 (broadcastInDim S1x256 ![1] bcast_S256_S1x256_1 v17)
  Host.divf (F := Ideal) (φ := .f32) v16 v19

/-- The reference's softmax weights are `scoreTail` of the three `tanh (W · x_k)` and `h`. -/
theorem beta_eq (x0 x1 x2 : (⟨S100000x256, .f32⟩ : BufTy).Contents (Elt Ideal)) (x3 : (⟨S256x100000, .f32⟩ : BufTy).Contents (Elt Ideal)) (x4 : (⟨S1x256, .f32⟩ : BufTy).Contents (Elt Ideal)) :
    Read.val_main_v20 (F := Ideal) x0 x1 x2 x3 x4
      = scoreTail (Host.tanh (F := Ideal) (φ := .f32) (Host.dotGeneral (F := Ideal) (φ₁ := .f32) (φ₂ := .f32) dot_S256x100000_S100000x256_S256x256_1_0_0_1_n_n none x3 x0))
          (Host.tanh (F := Ideal) (φ := .f32) (Host.dotGeneral (F := Ideal) (φ₁ := .f32) (φ₂ := .f32) dot_S256x100000_S100000x256_S256x256_1_0_0_1_n_n none x3 x1))
          (Host.tanh (F := Ideal) (φ := .f32) (Host.dotGeneral (F := Ideal) (φ₁ := .f32) (φ₂ := .f32) dot_S256x100000_S100000x256_S256x256_1_0_0_1_n_n none x3 x2)) x4 := rfl

/-- An entry of `W · x` (256 × 100000 by 100000 × 256) is the sum over the contracted axis. -/
theorem dot_apply (W : (⟨S256x100000, .f32⟩ : BufTy).Contents (Elt Ideal)) (x : (⟨S100000x256, .f32⟩ : BufTy).Contents (Elt Ideal)) (i j : Fin 256) :
    Host.dotGeneral (F := Ideal) (φ₁ := .f32) (φ₂ := .f32) dot_S256x100000_S100000x256_S256x256_1_0_0_1_n_n none W x (ix2 i j)
      = ∑ n : Fin 100000, W (ix2 i n) * x (ix2 n j) := by
  refine (Read.val_main_v0_apply x W (ix2 i j)).trans ?_
  refine Finset.sum_congr rfl fun n _ => ?_
  have el : Read.lidx_main_v0 (ix2 i j) n = ix2 i n :=
    funext fun a => Fin.ext (by match a with | ⟨0, _⟩ => rfl | ⟨1, _⟩ => rfl)
  have er : Read.ridx_main_v0 (ix2 i j) n = ix2 n j :=
    funext fun a => Fin.ext (by match a with | ⟨0, _⟩ => rfl | ⟨1, _⟩ => rfl)
  rw [el, er]

/-- An entry of the result: the three softmax weights of column `j` against the three inputs at
    `(n, j)`, summed as `(β₀ · x₁ + β₁ · x₂) + β₂ · x₃`. -/
theorem out_apply (x0 x1 x2 : (⟨S100000x256, .f32⟩ : BufTy).Contents (Elt Ideal)) (x3 : (⟨S256x100000, .f32⟩ : BufTy).Contents (Elt Ideal)) (x4 : (⟨S1x256, .f32⟩ : BufTy).Contents (Elt Ideal))
    (n : Fin 100000) (j : Fin 256) :
    Read.val_main_v37 (F := Ideal) x0 x1 x2 x3 x4 (ix2 n j)
      = (Read.val_main_v20 (F := Ideal) x0 x1 x2 x3 x4 (ix2 (0 : Fin 3) j) * x0 (ix2 n j)
          + Read.val_main_v20 (F := Ideal) x0 x1 x2 x3 x4 (ix2 (1 : Fin 3) j) * x1 (ix2 n j))
        + Read.val_main_v20 (F := Ideal) x0 x1 x2 x3 x4 (ix2 (2 : Fin 3) j) * x2 (ix2 n j) := by
  have e0 : Read.idx_main_v21 (Read.idx_main_v22 (Read.idx_main_v23 (Read.idx_main_v24 (ix2 n j)))) = ix2 (0 : Fin 3) j :=
    funext fun a => Fin.ext (by
      match a with
      | ⟨0, _⟩ => rfl
      | ⟨1, _⟩ => exact Nat.mod_eq_of_lt j.isLt)
  have e1 : Read.idx_main_v26 (Read.idx_main_v27 (Read.idx_main_v28 (Read.idx_main_v29 (ix2 n j)))) = ix2 (1 : Fin 3) j :=
    funext fun a => Fin.ext (by
      match a with
      | ⟨0, _⟩ => rfl
      | ⟨1, _⟩ => exact Nat.mod_eq_of_lt j.isLt)
  have e2 : Read.idx_main_v32 (Read.idx_main_v33 (Read.idx_main_v34 (Read.idx_main_v35 (ix2 n j)))) = ix2 (2 : Fin 3) j :=
    funext fun a => Fin.ext (by
      match a with
      | ⟨0, _⟩ => rfl
      | ⟨1, _⟩ => exact Nat.mod_eq_of_lt j.isLt)
  rw [Read.val_main_v37_apply, Read.val_main_v31_apply, Read.val_main_v36_apply, Read.val_main_v25_apply,
    Read.val_main_v30_apply, Read.val_main_v24_apply, Read.val_main_v23_apply, Read.val_main_v22_apply,
    Read.val_main_v21_apply, Read.val_main_v29_apply, Read.val_main_v28_apply, Read.val_main_v27_apply,
    Read.val_main_v26_apply, Read.val_main_v35_apply, Read.val_main_v34_apply, Read.val_main_v33_apply,
    Read.val_main_v32_apply, e0, e1, e2]
  rfl

/-- The reference's run: every weakly fair execution terminates with the result array at the
    composed function of the arguments' launch contents, the arguments unchanged. -/
theorem run_ref (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v37)
          = Read.val_main_v37 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun _ h c => ⟨(h c).1.trans (Read.val_main_v37_eq m' c), (h c).2⟩)
    (Cert.ReferenceIdeal.Value.run (F := Ideal) m' ρ')

end Cert.ReferenceIdeal.RefValue

end
-- ==== Proof.KI.HostRead.lean ====
import proofs.«142304_j59837484368571_2_alg».proof.Proof.Gen.KernelIdeal.Regions
import proofs.«142304_j59837484368571_2_alg».proof.Proof.RefValue
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
The kernel program's two stretches of host operations, read as values at the ideal instance,
over an arbitrary valuation `W` of the device's buffers.

* Before the first kernel: the weight matrix is transposed (and its change of float format is the
  identity on extended reals), so the staged array at `(n, i)` is the argument at `(i, n)`.
* After the first kernel, for each of the three partial-sum arrays `p` (2 × 256 × 256):
  `partSum p = p[0] + p[1]`; then `tanh`, the three products with `h`, their stack of three rows
  and the softmax over the rows — the same function `scoreTail` as in the reference — and the
  three rows of the softmax sliced out as 1 × 256 arrays.
* Neither stretch writes an argument array.
-/

noncomputable section

namespace Cert.KernelIdeal.HostRead

open Cert.KernelIdeal Cert.KernelIdeal.Gen Idealize.ShloMosaic Idealize.ShloMosaic.TcCoe Idealize.SL.Sem Idealize.ShloMosaic.StableHlo
open Idealize.ShloMosaic.ValueIdx (ix2 ix3 eq_ix2 eq_ix3)

/-- The two halves of one partial-sum array, added: `p[0] + p[1]` as a 256 × 256 array. -/
def partSum (p : (⟨S2x256x256, .f32⟩ : BufTy).Contents (Elt Ideal)) : (⟨S256x256, .f32⟩ : BufTy).Contents (Elt Ideal) :=
  addf (F := Ideal) (φ := .f32)
    (shapeCast S256x256 (extractStridedSlice S1x256x256 ![0, 0, 0] p slices_S2x256x256_S1x256x256_0_0_0) shapeCasts_S1x256x256_S256x256)
    (shapeCast S256x256 (extractStridedSlice S1x256x256 ![1, 0, 0] p slices_S2x256x256_S1x256x256_1_0_0) shapeCasts_S1x256x256_S256x256)

/-- An entry of `partSum p` is the sum of the two halves' entries. -/
theorem partSum_apply (p : (⟨S2x256x256, .f32⟩ : BufTy).Contents (Elt Ideal)) (i j : Fin 256) :
    partSum p (ix2 i j) = p (ix3 (0 : Fin 2) i j) + p (ix3 (1 : Fin 2) i j) := by
  have h0 : shapeCast S256x256 (extractStridedSlice S1x256x256 ![0, 0, 0] p slices_S2x256x256_S1x256x256_0_0_0) shapeCasts_S1x256x256_S256x256 (ix2 i j)
      = p (ix3 (0 : Fin 2) i j) := by
    refine (shapeCast_apply _ shapeCasts_S1x256x256_S256x256 (ix2 i j) (ix3 (0 : Fin 1) i j) ?_).trans ?_
    · rewrite [Shape.rowMajor_val_three, Shape.rowMajor_val_two]
      show (0 * 256 + i.val) * 256 + j.val = i.val * 256 + j.val
      omega
    · exact extractStridedSlice_apply ![0, 0, 0] p slices_S2x256x256_S1x256x256_0_0_0 (ix3 (0 : Fin 1) i j) (ix3 (0 : Fin 2) i j)
        (fun a => match a with
          | ⟨0, _⟩ => by show 0 = 0 + 0; rfl
          | ⟨1, _⟩ => by show i.val = 0 + i.val; omega
          | ⟨2, _⟩ => by show j.val = 0 + j.val; omega)
  have h1 : shapeCast S256x256 (extractStridedSlice S1x256x256 ![1, 0, 0] p slices_S2x256x256_S1x256x256_1_0_0) shapeCasts_S1x256x256_S256x256 (ix2 i j)
      = p (ix3 (1 : Fin 2) i j) := by
    refine (shapeCast_apply _ shapeCasts_S1x256x256_S256x256 (ix2 i j) (ix3 (0 : Fin 1) i j) ?_).trans ?_
    · rewrite [Shape.rowMajor_val_three, Shape.rowMajor_val_two]
      show (0 * 256 + i.val) * 256 + j.val = i.val * 256 + j.val
      omega
    · exact extractStridedSlice_apply ![1, 0, 0] p slices_S2x256x256_S1x256x256_1_0_0 (ix3 (0 : Fin 1) i j) (ix3 (1 : Fin 2) i j)
        (fun a => match a with
          | ⟨0, _⟩ => by show 1 = 1 + 0; rfl
          | ⟨1, _⟩ => by show i.val = 0 + i.val; omega
          | ⟨2, _⟩ => by show j.val = 0 + j.val; omega)
  exact congrArg₂ (· + ·) h0 h1

/-- The staged weight array is the transpose of the argument: at `(n, i)` it holds the argument's
    entry `(i, n)` (the change of float format is the identity on extended reals). -/
theorem host0_wt (W : Valuation τ sig (Elt Ideal)) (n : Fin 100000) (i : Fin 256) :
    (StableHlo.after hostOps0 W (Proc.devRef .tc main_v1) : (⟨S100000x256, .bf16⟩ : BufTy).Contents (Elt Ideal)) (ix2 n i)
      = (W (Proc.devRef .tc main_arg3) : (⟨S256x100000, .f32⟩ : BufTy).Contents (Elt Ideal)) (ix2 i n) := by
  have e : StableHlo.after hostOps0 W (Proc.devRef .tc main_v1)
      = truncf (F := Ideal) (φ := .f32) .bf16 (transpose S100000x256 [1, 0] (W (Proc.devRef .tc main_arg3) : (⟨S256x100000, .f32⟩ : BufTy).Contents (Elt Ideal)) transposes_S256x100000_S100000x256_1_0) bitsLt_bf16_f32 := by
    after_results
  rw [e]
  show transpose S100000x256 [1, 0] (W (Proc.devRef .tc main_arg3) : (⟨S256x100000, .f32⟩ : BufTy).Contents (Elt Ideal)) transposes_S256x100000_S100000x256_1_0 (ix2 n i) = _
  exact transpose_apply [1, 0] _ transposes_S256x100000_S100000x256_1_0 (ix2 n i) (ix2 i n)
    (fun b => match b with
      | ⟨0, _⟩ => rfl
      | ⟨1, _⟩ => rfl)

/-- The first host stretch writes no argument array. -/
theorem host0_keeps (W : Valuation τ sig (Elt Ideal)) (b : Ref sig .tc) (hb : b ∉ hostOps0_W) :
    StableHlo.after hostOps0 W (Proc.devRef .tc b) = W (Proc.devRef .tc b) :=
  StableHlo.after_of_writes_sub hostOps0 W hostOps0_writes hb

/-- The second host stretch writes no argument array (nor any buffer outside its own results). -/
theorem host1_keeps (W : Valuation τ sig (Elt Ideal)) (b : Ref sig .tc) (hb : b ∉ hostOps1_W) :
    StableHlo.after hostOps1 W (Proc.devRef .tc b) = W (Proc.devRef .tc b) :=
  StableHlo.after_of_writes_sub hostOps1 W hostOps1_writes hb

/-- After the second host stretch the softmax weights are the reference's `scoreTail` of the three
    `tanh (p_k[0] + p_k[1])` and `h`. -/
theorem host1_beta (W : Valuation τ sig (Elt Ideal)) :
    StableHlo.after hostOps1 W (Proc.devRef .tc main_v35)
      = Cert.ReferenceIdeal.RefValue.scoreTail
          (Host.tanh (F := Ideal) (φ := .f32) (partSum (W (Proc.devRef .tc main_v2_0))))
          (Host.tanh (F := Ideal) (φ := .f32) (partSum (W (Proc.devRef .tc main_v2_1))))
          (Host.tanh (F := Ideal) (φ := .f32) (partSum (W (Proc.devRef .tc main_v2_2))))
          (W (Proc.devRef .tc main_arg4)) := by
  after_results_simp
  rfl

/-- Row 0 of the softmax, sliced out as a 1 × 256 array. -/
theorem host1_row0 (W : Valuation τ sig (Elt Ideal)) :
    (StableHlo.after hostOps1 W (Proc.devRef .tc main_v36) : (⟨S1x256, .f32⟩ : BufTy).Contents (Elt Ideal))
      = extractStridedSlice S1x256 ![0, 0] (StableHlo.after hostOps1 W (Proc.devRef .tc main_v35) : (⟨S3x256, .f32⟩ : BufTy).Contents (Elt Ideal)) slices_S3x256_S1x256_0_0 := by
  after_results_simp

/-- Its entry `j` is the softmax's entry `(0, j)`. -/
theorem host1_w0 (W : Valuation τ sig (Elt Ideal)) (j : Fin 256) :
    (StableHlo.after hostOps1 W (Proc.devRef .tc main_v36) : (⟨S1x256, .f32⟩ : BufTy).Contents (Elt Ideal)) (ix2 (0 : Fin 1) j)
      = (StableHlo.after hostOps1 W (Proc.devRef .tc main_v35) : (⟨S3x256, .f32⟩ : BufTy).Contents (Elt Ideal)) (ix2 (0 : Fin 3) j) :=
  (congrFun (host1_row0 W) (ix2 (0 : Fin 1) j)).trans
    (extractStridedSlice_apply ![0, 0] _ slices_S3x256_S1x256_0_0 (ix2 (0 : Fin 1) j) (ix2 (0 : Fin 3) j)
      (fun a => match a with
        | ⟨0, _⟩ => by show 0 = 0 + 0; rfl
        | ⟨1, _⟩ => by show j.val = 0 + j.val; omega))

/-- Row 1 of the softmax, sliced out as a 1 × 256 array. -/
theorem host1_row1 (W : Valuation τ sig (Elt Ideal)) :
    (StableHlo.after hostOps1 W (Proc.devRef .tc main_v37) : (⟨S1x256, .f32⟩ : BufTy).Contents (Elt Ideal))
      = extractStridedSlice S1x256 ![1, 0] (StableHlo.after hostOps1 W (Proc.devRef .tc main_v35) : (⟨S3x256, .f32⟩ : BufTy).Contents (Elt Ideal)) slices_S3x256_S1x256_1_0 := by
  after_results_simp

/-- Its entry `j` is the softmax's entry `(1, j)`. -/
theorem host1_w1 (W : Valuation τ sig (Elt Ideal)) (j : Fin 256) :
    (StableHlo.after hostOps1 W (Proc.devRef .tc main_v37) : (⟨S1x256, .f32⟩ : BufTy).Contents (Elt Ideal)) (ix2 (0 : Fin 1) j)
      = (StableHlo.after hostOps1 W (Proc.devRef .tc main_v35) : (⟨S3x256, .f32⟩ : BufTy).Contents (Elt Ideal)) (ix2 (1 : Fin 3) j) :=
  (congrFun (host1_row1 W) (ix2 (0 : Fin 1) j)).trans
    (extractStridedSlice_apply ![1, 0] _ slices_S3x256_S1x256_1_0 (ix2 (0 : Fin 1) j) (ix2 (1 : Fin 3) j)
      (fun a => match a with
        | ⟨0, _⟩ => by show 1 = 1 + 0; rfl
        | ⟨1, _⟩ => by show j.val = 0 + j.val; omega))

/-- Row 2 of the softmax, sliced out as a 1 × 256 array. -/
theorem host1_row2 (W : Valuation τ sig (Elt Ideal)) :
    (StableHlo.after hostOps1 W (Proc.devRef .tc main_v38) : (⟨S1x256, .f32⟩ : BufTy).Contents (Elt Ideal))
      = extractStridedSlice S1x256 ![2, 0] (StableHlo.after hostOps1 W (Proc.devRef .tc main_v35) : (⟨S3x256, .f32⟩ : BufTy).Contents (Elt Ideal)) slices_S3x256_S1x256_2_0 := by
  after_results_simp

/-- Its entry `j` is the softmax's entry `(2, j)`. -/
theorem host1_w2 (W : Valuation τ sig (Elt Ideal)) (j : Fin 256) :
    (StableHlo.after hostOps1 W (Proc.devRef .tc main_v38) : (⟨S1x256, .f32⟩ : BufTy).Contents (Elt Ideal)) (ix2 (0 : Fin 1) j)
      = (StableHlo.after hostOps1 W (Proc.devRef .tc main_v35) : (⟨S3x256, .f32⟩ : BufTy).Contents (Elt Ideal)) (ix2 (2 : Fin 3) j) :=
  (congrFun (host1_row2 W) (ix2 (0 : Fin 1) j)).trans
    (extractStridedSlice_apply ![2, 0] _ slices_S3x256_S1x256_2_0 (ix2 (0 : Fin 1) j) (ix2 (2 : Fin 3) j)
      (fun a => match a with
        | ⟨0, _⟩ => by show 2 = 2 + 0; rfl
        | ⟨1, _⟩ => by show j.val = 0 + j.val; omega))

end Cert.KernelIdeal.HostRead

end
-- ==== Proof.SumSplit.lean ====
import Mathlib.Data.EReal.Basic
import Mathlib.Algebra.BigOperators.Fin
import Mathlib.Algebra.BigOperators.Intervals

/-!
Re-association and re-indexing of finite sums in an additive commutative monoid, and their
instances over the extended reals at the sizes 100000 = 2 · 25 · 2000.

* A running sum `acc 0 = 0 + a 0`, `acc (k + 1) = acc k + a (k + 1)` is the sum of `a` over
  `0 … K`.
* A sum over `0 … A·B - 1` is the double sum over `a < A`, `b < B` at `a·B + b`.
* A sum over `Fin 100000` is the sum of its two halves, each half a sum over 25 consecutive
  windows of 2000 terms.

Only associativity and commutativity of `+` are used: no distributivity, no finiteness.
-/

namespace Cert.SumSplit

open Finset

/-- A running sum started at `0 + a 0` is the sum of the terms so far. -/
theorem acc_eq_sum_gen {M : Type*} [AddCommMonoid M] (a acc : ℕ → M) (h0 : acc 0 = 0 + a 0)
    (hs : ∀ k, acc (k + 1) = acc k + a (k + 1)) (K : ℕ) :
    acc K = ∑ k ∈ Finset.range (K + 1), a k := by
  induction K with
  | zero => rw [h0, zero_add, Finset.sum_range_one]
  | succ n ih => rw [hs, ih, Finset.sum_range_succ _ (n + 1)]

/-- A sum over `0 … A·B - 1` read window by window: `A` windows of `B` consecutive terms. -/
theorem sum_range_mul {M : Type*} [AddCommMonoid M] (g : ℕ → M) (A B : ℕ) :
    ∑ i ∈ Finset.range (A * B), g i = ∑ a ∈ Finset.range A, ∑ b ∈ Finset.range B, g (a * B + b) := by
  induction A with
  | zero => rw [Nat.zero_mul, Finset.range_zero, Finset.sum_empty, Finset.sum_empty]
  | succ n ih => rw [Nat.succ_mul, Finset.sum_range_add, ih, Finset.sum_range_succ _ n]

/-- The same with the sum over `Fin (A * B)` on the left and `Fin B` inside. -/
theorem sum_fin_mul {M : Type*} [AddCommMonoid M] (g : ℕ → M) (A B : ℕ) :
    ∑ n : Fin (A * B), g n.val = ∑ a ∈ Finset.range A, ∑ b : Fin B, g (a * B + b.val) := by
  rw [Fin.sum_univ_eq_sum_range g (A * B), sum_range_mul g A B]
  refine Finset.sum_congr rfl fun a _ => ?_
  exact (Fin.sum_univ_eq_sum_range (fun b => g (a * B + b)) B).symm

/-- A running sum over the extended reals started at `0 + a 0` is the sum of the terms so far. -/
theorem acc_eq_sum (a acc : ℕ → EReal) (h0 : acc 0 = 0 + a 0)
    (hs : ∀ k, acc (k + 1) = acc k + a (k + 1)) (K : ℕ) :
    acc K = ∑ k ∈ Finset.range (K + 1), a k :=
  acc_eq_sum_gen a acc h0 hs K

/-- A sum of 100000 extended reals is the sum of its two halves, each read as 25 windows of 2000
    consecutive terms: term `(25·c + k)·2000 + r` for half `c`, window `k`, position `r`. -/
theorem sum_split (f : ℕ → EReal) :
    (∑ n : Fin 100000, f n.val)
      = (∑ k ∈ Finset.range 25, ∑ r : Fin 2000, f ((25 * 0 + k) * 2000 + r.val))
        + (∑ k ∈ Finset.range 25, ∑ r : Fin 2000, f ((25 * 1 + k) * 2000 + r.val)) := by
  have e : (100000 : ℕ) = 25 * 2000 + 25 * 2000 := by norm_num
  rw [Fin.sum_univ_eq_sum_range f 100000, e, Finset.sum_range_add, sum_range_mul f 25 2000,
    sum_range_mul (fun x => f (25 * 2000 + x)) 25 2000]
  refine congrArg₂ (· + ·) (Finset.sum_congr rfl fun k _ => ?_) (Finset.sum_congr rfl fun k _ => ?_)
  · rw [← Fin.sum_univ_eq_sum_range (fun b => f (k * 2000 + b)) 2000]
    exact Finset.sum_congr rfl fun r _ => congrArg f (by omega)
  · rw [← Fin.sum_univ_eq_sum_range (fun b => f (25 * 2000 + (k * 2000 + b))) 2000]
    exact Finset.sum_congr rfl fun r _ => congrArg f (by omega)

/-- A function on `Fin N` continued by `0` to every natural number. -/
noncomputable def extend {N : ℕ} (g : Fin N → EReal) (n : ℕ) : EReal := if h : n < N then g ⟨n, h⟩ else 0

/-- Below `N` the continuation is the function. -/
theorem extend_of_lt {N : ℕ} (g : Fin N → EReal) {n : ℕ} (h : n < N) : extend g n = g ⟨n, h⟩ :=
  dif_pos h

/-- At the value of an index the continuation is the function. -/
theorem extend_val {N : ℕ} (g : Fin N → EReal) (n : Fin N) : extend g n.val = g n :=
  extend_of_lt g n.isLt

/-- The split of a sum over `Fin 100000` into two halves of 25 windows of 2000 terms, for a function
    of the index itself. -/
theorem sum_split_fin (g : Fin 100000 → EReal) :
    (∑ n : Fin 100000, g n)
      = (∑ k ∈ Finset.range 25, ∑ r : Fin 2000, extend g ((25 * 0 + k) * 2000 + r.val))
        + (∑ k ∈ Finset.range 25, ∑ r : Fin 2000, extend g ((25 * 1 + k) * 2000 + r.val)) := by
  rw [← sum_split (extend g)]
  exact Finset.sum_congr rfl fun n _ => (extend_val g n).symm

end Cert.SumSplit
-- ==== Proof.KI.ProdAt.lean ====
import proofs.«142304_j59837484368571_2_alg».proof.Proof.Gen.KernelIdeal
import proofs.«142304_j59837484368571_2_alg».proof.Proof.SumSplit
import Idealize.ShloMosaic.Lib.ValueIdx

/-!
The terms of the product `W · x` as the kernel meets them: with `wt` the transposed weights
(100000 × 256) and `x` an input (100000 × 256), the term of entry `(i, j)` at contracted position
`n` is `wt[n, i] · x[n, j]`, and block `m` of 2000 consecutive positions contributes their sum.
-/

noncomputable section

namespace Cert.KernelIdeal.Join

open Cert.KernelIdeal Idealize.ShloMosaic
open Idealize.ShloMosaic.ValueIdx (ix2)

/-- The term of entry `(i, j)` of the product at contracted position `n`. -/
def prodAt (wt x : S100000x256.Idx → EReal) (i j : Fin 256) : Fin 100000 → EReal :=
  fun n => wt (ix2 n i) * x (ix2 n j)

theorem prodAt_apply (wt x : S100000x256.Idx → EReal) (i j : Fin 256) (n : Fin 100000) :
    prodAt wt x i j n = wt (ix2 n i) * x (ix2 n j) := rfl

/-- The terms of entry `(i, j)` summed over the 2000 positions of block `m`. -/
def stepSum (wt x : S100000x256.Idx → EReal) (i j : Fin 256) (m : ℕ) : EReal :=
  ∑ r : Fin 2000, Cert.SumSplit.extend (prodAt wt x i j) (m * 2000 + r.val)

theorem stepSum_def (wt x : S100000x256.Idx → EReal) (i j : Fin 256) (m : ℕ) :
    stepSum wt x i j m = ∑ r : Fin 2000, Cert.SumSplit.extend (prodAt wt x i j) (m * 2000 + r.val) := rfl

end Cert.KernelIdeal.Join

end
-- ==== Proof.KI.Join.lean ====
import proofs.«142304_j59837484368571_2_alg».proof.Proof.KI.ProdAt
import proofs.«142304_j59837484368571_2_alg».proof.Proof.KI.HostRead
import proofs.«142304_j59837484368571_2_alg».proof.Proof.RefValue
import proofs.«142304_j59837484368571_2_alg».proof.Proof.SumSplit

/-!
The algebra that joins the two programs.

* If each half `c` of a partial-sum array holds, at `(i, j)`, the sum over its 25 blocks
  `25·c + k` of the block sums of `wt[n, i] · x[n, j]`, and `wt` is the transpose of `W`, then the
  two halves added are the product `W · x`: a sum of 100000 terms read as two halves of 25 windows
  of 2000 — re-association of a finite sum, nothing else.
* With the three partial-sum arrays so identified and `h` the same, the kernel program's softmax
  weights are the reference's.
-/

noncomputable section

namespace Cert.KernelIdeal.Join

open Cert.KernelIdeal Cert.KernelIdeal.Gen Cert.KernelIdeal.HostRead Idealize.ShloMosaic Idealize.ShloMosaic.TcCoe Idealize.SL.Sem Idealize.ShloMosaic.StableHlo
open Idealize.ShloMosaic.ValueIdx (ix2 ix3 eq_ix2 eq_ix3)

/-- The two halves of a partial-sum array, added, are the product `W · x`. -/
theorem partSum_eq_dot (p : (⟨S2x256x256, .f32⟩ : BufTy).Contents (Elt Ideal)) (wt x : S100000x256.Idx → EReal)
    (Wm : (⟨S256x100000, .f32⟩ : BufTy).Contents (Elt Ideal))
    (hp : ∀ (cc : Fin 2) (i j : Fin 256), p (ix3 cc i j) = ∑ k ∈ Finset.range 25, stepSum wt x i j (25 * cc.val + k))
    (hwt : ∀ (n : Fin 100000) (i : Fin 256), wt (ix2 n i) = Wm (ix2 i n)) :
    partSum p = Host.dotGeneral (F := Ideal) (φ₁ := .f32) (φ₂ := .f32) Cert.ReferenceIdeal.dot_S256x100000_S100000x256_S256x256_1_0_0_1_n_n none Wm x := by
  funext ij
  obtain ⟨i, j, rfl⟩ : ∃ (i j : Fin 256), ij = ix2 i j := ⟨ij 0, ij 1, eq_ix2 ij⟩
  rw [partSum_apply, hp 0 i j, hp 1 i j]
  refine Eq.trans ?_ (Cert.ReferenceIdeal.RefValue.dot_apply Wm x i j).symm
  have e : (∑ n : Fin 100000, Wm (ix2 i n) * x (ix2 n j)) = ∑ n : Fin 100000, prodAt wt x i j n :=
    Finset.sum_congr rfl fun n _ => by rw [prodAt_apply, hwt]
  rw [e, Cert.SumSplit.sum_split_fin (prodAt wt x i j)]
  rfl

/-- With the three partial-sum arrays identified as the three products and the same `h`, the
    softmax weights after the second host stretch are the reference's. -/
theorem beta_join (W : Valuation τ sig (Elt Ideal))
    (x0 x1 x2 : (⟨Cert.ReferenceIdeal.S100000x256, .f32⟩ : BufTy).Contents (Elt Ideal)) (x3 : (⟨Cert.ReferenceIdeal.S256x100000, .f32⟩ : BufTy).Contents (Elt Ideal)) (x4 : (⟨Cert.ReferenceIdeal.S1x256, .f32⟩ : BufTy).Contents (Elt Ideal))
    (h0 : partSum (W (Proc.devRef .tc main_v2_0)) = Host.dotGeneral (F := Ideal) (φ₁ := .f32) (φ₂ := .f32) Cert.ReferenceIdeal.dot_S256x100000_S100000x256_S256x256_1_0_0_1_n_n none x3 x0)
    (h1 : partSum (W (Proc.devRef .tc main_v2_1)) = Host.dotGeneral (F := Ideal) (φ₁ := .f32) (φ₂ := .f32) Cert.ReferenceIdeal.dot_S256x100000_S100000x256_S256x256_1_0_0_1_n_n none x3 x1)
    (h2 : partSum (W (Proc.devRef .tc main_v2_2)) = Host.dotGeneral (F := Ideal) (φ₁ := .f32) (φ₂ := .f32) Cert.ReferenceIdeal.dot_S256x100000_S100000x256_S256x256_1_0_0_1_n_n none x3 x2)
    (h4 : W (Proc.devRef .tc main_arg4) = x4) :
    StableHlo.after hostOps1 W (Proc.devRef .tc main_v35)
      = Cert.ReferenceIdeal.Read.val_main_v20 (F := Ideal) x0 x1 x2 x3 x4 := by
  rw [host1_beta, Cert.ReferenceIdeal.RefValue.beta_eq, h0, h1, h2, h4]

end Cert.KernelIdeal.Join

end
-- ==== Proof.KI.R0Pieces.lean ====
import proofs.«142304_j59837484368571_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel region's stores read back: what each case leaves in the accumulators and the outputs, as the
    body's arithmetic of the point's input blocks and of what the accumulators held. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A core's first step leaves in accumulator 0 the step's product added onto the zero splat. -/
theorem scA_0 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i) (x0 : Vec F S2000x256 .bf16) (x1 x2 x3 : Vec F S2000x256 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.2.1) = k0_pay8 x0 x1 (k0_pay4 (F := F)) := by
  rw [View.read_writes_eq_canon _ _ _ (scover0_A_0 c)]
  unfold kernelRun0_A
  dsimp only
  try sl_unfold_words
  rw [View.canon_cons_unit_zero hz2, View.readCov_unit_zero (S := S256x256) _ hz2]
  simp only [View.readAt_eq_ld, harg2.read_unread, harg3.read_unread, View.ld_unit_zero (S := S2000x256) hz2]

/-- A middle step adds the step's product onto what accumulator 0 held. -/
theorem scB_0 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i) (x0 : Vec F S2000x256 .bf16) (x1 x2 x3 : Vec F S2000x256 .f32) (xs0 xs1 xs2 : Vec F S256x256 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1) = k0_pay8 x0 x1 xs0 := by
  rw [View.read_writes_eq_canon _ _ _ (scover0_B_0 c)]
  unfold kernelRun0_B
  dsimp only
  try sl_unfold_words
  rw [View.canon_unit_zero hz2]
  simp only [View.readAt_eq_ld, harg2.read_unread, harg3.read_unread, harg9.read_unread, View.ld_unit_zero (S := S2000x256) hz2, View.ld_unit_zero (S := S256x256) hz2]

/-- So does a core's last step, -/
theorem scC_0 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1) = k0_pay8 x0 x1 xs0 := by
  rw [View.read_writes_eq_canon _ _ _ (scover0_C_0 c)]
  unfold kernelRun0_C
  dsimp only
  try sl_unfold_words
  rw [View.canon_unit_zero hz2]
  simp only [View.readAt_eq_ld, harg2.read_unread, harg3.read_unread, harg9.read_unread, View.ld_unit_zero (S := S2000x256) hz2, View.ld_unit_zero (S := S256x256) hz2]

/-- which then copies the accumulator, re-laid with a leading unit axis, to output 4. -/
theorem outC_4 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).1) = k0_pay1 (k0_pay8 x0 x1 xs0) := by
  rw [View.read_writes_eq_canon _ _ _ (cover0_C_4 c)]
  unfold kernelRun0_C
  dsimp only
  try sl_unfold_words
  rw [View.canon_unit_zero hz3, View.readCov_unit_zero (S := S256x256) _ hz2]
  simp only [View.readAt_eq_ld, harg2.read_unread, harg3.read_unread, harg9.read_unread, View.ld_unit_zero (S := S2000x256) hz2, View.ld_unit_zero (S := S256x256) hz2]

/-- A core's first step leaves in accumulator 1 the step's product added onto the zero splat. -/
theorem scA_1 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i) (x0 : Vec F S2000x256 .bf16) (x1 x2 x3 : Vec F S2000x256 .f32) :
    VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.2.1) = k0_pay9 x0 x2 (k0_pay5 (F := F)) := by
  rw [View.read_writes_eq_canon _ _ _ (scover0_A_1 c)]
  unfold kernelRun0_A
  dsimp only
  try sl_unfold_words
  rw [View.canon_cons_unit_zero hz2, View.readCov_unit_zero (S := S256x256) _ hz2]
  simp only [View.readAt_eq_ld, harg2.read_unread, harg4.read_unread, View.ld_unit_zero (S := S2000x256) hz2]

/-- A middle step adds the step's product onto what accumulator 1 held. -/
theorem scB_1 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i) (x0 : Vec F S2000x256 .bf16) (x1 x2 x3 : Vec F S2000x256 .f32) (xs0 xs1 xs2 : Vec F S256x256 .f32) :
    VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1) = k0_pay9 x0 x2 xs1 := by
  rw [View.read_writes_eq_canon _ _ _ (scover0_B_1 c)]
  unfold kernelRun0_B
  dsimp only
  try sl_unfold_words
  rw [View.canon_unit_zero hz2]
  simp only [View.readAt_eq_ld, harg2.read_unread, harg4.read_unread, harg10.read_unread, View.ld_unit_zero (S := S2000x256) hz2, View.ld_unit_zero (S := S256x256) hz2]

/-- So does a core's last step, -/
theorem scC_1 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1) = k0_pay9 x0 x2 xs1 := by
  rw [View.read_writes_eq_canon _ _ _ (scover0_C_1 c)]
  unfold kernelRun0_C
  dsimp only
  try sl_unfold_words
  rw [View.canon_unit_zero hz2]
  simp only [View.readAt_eq_ld, harg2.read_unread, harg4.read_unread, harg10.read_unread, View.ld_unit_zero (S := S2000x256) hz2, View.ld_unit_zero (S := S256x256) hz2]

/-- which then copies the accumulator, re-laid with a leading unit axis, to output 5. -/
theorem outC_5 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1) = k0_pay2 (k0_pay9 x0 x2 xs1) := by
  rw [View.read_writes_eq_canon _ _ _ (cover0_C_5 c)]
  unfold kernelRun0_C
  dsimp only
  try sl_unfold_words
  rw [View.canon_unit_zero hz3, View.readCov_unit_zero (S := S256x256) _ hz2]
  simp only [View.readAt_eq_ld, harg2.read_unread, harg4.read_unread, harg10.read_unread, View.ld_unit_zero (S := S2000x256) hz2, View.ld_unit_zero (S := S256x256) hz2]

/-- A core's first step leaves in accumulator 2 the step's product added onto the zero splat. -/
theorem scA_2 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : cond0_0 i) (hc1 : ¬cond0_1 i) (x0 : Vec F S2000x256 .bf16) (x1 x2 x3 : Vec F S2000x256 .f32) :
    VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1) = k0_pay10 x0 x3 (k0_pay6 (F := F)) := by
  rw [View.read_writes_eq_canon _ _ _ (scover0_A_2 c)]
  unfold kernelRun0_A
  dsimp only
  try sl_unfold_words
  rw [View.canon_cons_unit_zero hz2, View.readCov_unit_zero (S := S256x256) _ hz2]
  simp only [View.readAt_eq_ld, harg2.read_unread, harg5.read_unread, View.ld_unit_zero (S := S2000x256) hz2]

/-- A middle step adds the step's product onto what accumulator 2 held. -/
theorem scB_2 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : ¬cond0_1 i) (x0 : Vec F S2000x256 .bf16) (x1 x2 x3 : Vec F S2000x256 .f32) (xs0 xs1 xs2 : Vec F S256x256 .f32) :
    VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1) = k0_pay10 x0 x3 xs2 := by
  rw [View.read_writes_eq_canon _ _ _ (scover0_B_2 c)]
  unfold kernelRun0_B
  dsimp only
  try sl_unfold_words
  rw [View.canon_unit_zero hz2]
  simp only [View.readAt_eq_ld, harg2.read_unread, harg5.read_unread, harg11.read_unread, View.ld_unit_zero (S := S2000x256) hz2, View.ld_unit_zero (S := S256x256) hz2]

/-- So does a core's last step, -/
theorem scC_2 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1) = k0_pay10 x0 x3 xs2 := by
  rw [View.read_writes_eq_canon _ _ _ (scover0_C_2 c)]
  unfold kernelRun0_C
  dsimp only
  try sl_unfold_words
  rw [View.canon_unit_zero hz2]
  simp only [View.readAt_eq_ld, harg2.read_unread, harg5.read_unread, harg11.read_unread, View.ld_unit_zero (S := S2000x256) hz2, View.ld_unit_zero (S := S256x256) hz2]

/-- which then copies the accumulator, re-laid with a leading unit axis, to output 6. -/
theorem outC_6 (c : Dev nD) (i : grid0.Coords) (arg2 : Memref sig .tc .vmem S2000x256 .bf16) (harg2 : arg2.IsWhole) (arg3 : Memref sig .tc .vmem S2000x256 .f32) (harg3 : arg3.IsWhole) (arg4 : Memref sig .tc .vmem S2000x256 .f32) (harg4 : arg4.IsWhole) (arg5 : Memref sig .tc .vmem S2000x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (hc0 : ¬cond0_0 i) (hc1 : cond0_1 i) (x0 : Vec F S2000x256 .bf16) (x1 x2 x3 : Vec F S2000x256 .f32) (xs0 xs1 xs2 : Vec F S256x256 .f32) :
    VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1) = k0_pay3 (k0_pay10 x0 x3 xs2) := by
  rw [View.read_writes_eq_canon _ _ _ (cover0_C_6 c)]
  unfold kernelRun0_C
  dsimp only
  try sl_unfold_words
  rw [View.canon_unit_zero hz3, View.readCov_unit_zero (S := S256x256) _ hz2]
  simp only [View.readAt_eq_ld, harg2.read_unread, harg5.read_unread, harg11.read_unread, View.ld_unit_zero (S := S2000x256) hz2, View.ld_unit_zero (S := S256x256) hz2]

/-! ## The same at a grid point, on the point's memrefs and input blocks -/

theorem tupA_sc0 (c : Dev nD) (t : Fin cfg0.N) (hc0 : cond0_0 (grid0.coords t)) (hc1 : ¬cond0_1 (grid0.coords t)) :
    (tupA V c t hc0 hc1).2.2.2.1 = k0_pay8 (iblk0 V c 0 t) (iblk0 V c 1 t) (k0_pay4 (F := F)) := by
  unfold tupA; dsimp only; exact scA_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)
theorem tupB_sc0 (c : Dev nD) (t : Fin cfg0.N) (hc0 : ¬cond0_0 (grid0.coords t)) (hc1 : ¬cond0_1 (grid0.coords t)) (xs0 xs1 xs2 : Vec F S256x256 .f32) :
    (tupB V c t hc0 hc1 xs0 xs1 xs2).2.2.2.1 = k0_pay8 (iblk0 V c 0 t) (iblk0 V c 1 t) xs0 := by
  unfold tupB; dsimp only; exact scB_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_sc0 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).2.2.2.1 = k0_pay8 (iblk0 V c 0 t) (iblk0 V c 1 t) xs0 := by
  unfold tupC; dsimp only; exact scC_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_out4 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).1 = k0_pay1 (k0_pay8 (iblk0 V c 0 t) (iblk0 V c 1 t) xs0) := by
  unfold tupC; dsimp only; exact outC_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2

theorem tupA_sc1 (c : Dev nD) (t : Fin cfg0.N) (hc0 : cond0_0 (grid0.coords t)) (hc1 : ¬cond0_1 (grid0.coords t)) :
    (tupA V c t hc0 hc1).2.2.2.2.1 = k0_pay9 (iblk0 V c 0 t) (iblk0 V c 2 t) (k0_pay5 (F := F)) := by
  unfold tupA; dsimp only; exact scA_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)
theorem tupB_sc1 (c : Dev nD) (t : Fin cfg0.N) (hc0 : ¬cond0_0 (grid0.coords t)) (hc1 : ¬cond0_1 (grid0.coords t)) (xs0 xs1 xs2 : Vec F S256x256 .f32) :
    (tupB V c t hc0 hc1 xs0 xs1 xs2).2.2.2.2.1 = k0_pay9 (iblk0 V c 0 t) (iblk0 V c 2 t) xs1 := by
  unfold tupB; dsimp only; exact scB_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_sc1 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).2.2.2.2.1 = k0_pay9 (iblk0 V c 0 t) (iblk0 V c 2 t) xs1 := by
  unfold tupC; dsimp only; exact scC_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_out5 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).2.1 = k0_pay2 (k0_pay9 (iblk0 V c 0 t) (iblk0 V c 2 t) xs1) := by
  unfold tupC; dsimp only; exact outC_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2

theorem tupA_sc2 (c : Dev nD) (t : Fin cfg0.N) (hc0 : cond0_0 (grid0.coords t)) (hc1 : ¬cond0_1 (grid0.coords t)) :
    (tupA V c t hc0 hc1).2.2.2.2.2 = k0_pay10 (iblk0 V c 0 t) (iblk0 V c 3 t) (k0_pay6 (F := F)) := by
  unfold tupA; dsimp only; exact scA_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t)
theorem tupB_sc2 (c : Dev nD) (t : Fin cfg0.N) (hc0 : ¬cond0_0 (grid0.coords t)) (hc1 : ¬cond0_1 (grid0.coords t)) (xs0 xs1 xs2 : Vec F S256x256 .f32) :
    (tupB V c t hc0 hc1 xs0 xs1 xs2).2.2.2.2.2 = k0_pay10 (iblk0 V c 0 t) (iblk0 V c 3 t) xs2 := by
  unfold tupB; dsimp only; exact scB_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_sc2 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).2.2.2.2.2 = k0_pay10 (iblk0 V c 0 t) (iblk0 V c 3 t) xs2 := by
  unfold tupC; dsimp only; exact scC_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2
theorem tupC_out6 (c : Dev nD) (t : Fin cfg0.N) (hc0 : ¬cond0_0 (grid0.coords t)) (hc1 : cond0_1 (grid0.coords t)) (xs0 xs1 xs2 : Vec F S256x256 .f32) :
    (tupC V c t hc0 hc1 xs0 xs1 xs2).2.2.1 = k0_pay3 (k0_pay10 (iblk0 V c 0 t) (iblk0 V c 3 t) xs2) := by
  unfold tupC; dsimp only; exact outC_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 (iblk0 V c 0 t) (iblk0 V c 1 t) (iblk0 V c 2 t) (iblk0 V c 3 t) xs0 xs1 xs2

end Cert.KernelIdeal.Hand

end
-- ==== Proof.KI.R0Pay.lean ====
import proofs.«142304_j59837484368571_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The arithmetic of the first kernel's body, read at one index, at the ideal values.

The body keeps three [256,256] accumulators. On the first step of the inner grid axis each is set to the zero
splat; on every step the product of the [2000,256] left block, transposed, with a [2000,256] right block is
added; on the last step each accumulator is stored as a [1,256,256] block. The contraction runs over axis 0 of
BOTH operands (the 2000 rows), so the element (i, j) of a product is the sum over the rows r of
left (r, i) * right (r, j).
-/

noncomputable section

open scoped BigOperators

namespace Cert.KernelIdeal.Pay

open Cert.KernelIdeal Cert.KernelIdeal.Gen Idealize.ShloMosaic Idealize.ShloMosaic.TcCoe
open Idealize.ShloMosaic.ValueIdx (ix2 ix3 eq_ix2)

/-! ## The operand indices of the contraction, by coordinates -/

/-- The left operand's row is the contraction position. -/
theorem lhs_row (j : S256x256.Idx) (q : dot_S2000x256_S2000x256_S256x256_0_0_1_1_n_n.contr.Idx) :
    (dot_S2000x256_S2000x256_S256x256_0_0_1_1_n_n.lhsIdx j q 0).val = (q ⟨0, by decide⟩).val :=
  dot_S2000x256_S2000x256_S256x256_0_0_1_1_n_n.lhsIdx_val_of_single rfl j q

/-- The left operand's column is the result's row. -/
theorem lhs_col (j : S256x256.Idx) (q : dot_S2000x256_S2000x256_S256x256_0_0_1_1_n_n.contr.Idx) :
    (dot_S2000x256_S2000x256_S256x256_0_0_1_1_n_n.lhsIdx j q 1).val = (j 0).val := by
  unfold DotDims.lhsIdx
  rw [dif_neg (show ¬(1 : Fin S2000x256.rank) ∈ dot_S2000x256_S2000x256_S256x256_0_0_1_1_n_n.lhsBatch by decide), dif_pos (show (1 : Fin S2000x256.rank) ∈ dot_S2000x256_S2000x256_S256x256_0_0_1_1_n_n.lhsNonContracting by decide)]
  rfl

/-- The right operand's row is the contraction position. -/
theorem rhs_row (j : S256x256.Idx) (q : dot_S2000x256_S2000x256_S256x256_0_0_1_1_n_n.contr.Idx) :
    (dot_S2000x256_S2000x256_S256x256_0_0_1_1_n_n.rhsIdx j q 0).val = (q ⟨0, by decide⟩).val :=
  dot_S2000x256_S2000x256_S256x256_0_0_1_1_n_n.rhsIdx_val_of_single rfl j q

/-- The right operand's column is the result's column. -/
theorem rhs_col (j : S256x256.Idx) (q : dot_S2000x256_S2000x256_S256x256_0_0_1_1_n_n.contr.Idx) :
    (dot_S2000x256_S2000x256_S256x256_0_0_1_1_n_n.rhsIdx j q 1).val = (j 1).val := by
  unfold DotDims.rhsIdx
  rw [dif_neg (show ¬(1 : Fin S2000x256.rank) ∈ dot_S2000x256_S2000x256_S256x256_0_0_1_1_n_n.rhsBatch by decide), dif_pos (show (1 : Fin S2000x256.rank) ∈ dot_S2000x256_S2000x256_S256x256_0_0_1_1_n_n.rhsNonContracting by decide)]
  rfl

/-! ## The product into the zero splat, at an index -/

/-- Element (i, j) of the product of the transposed left block with the right block, accumulated into the zero
    splat: the sum over the 2000 rows of left (r, i) * right (r, j). -/
theorem matmul_zero_apply (a b : FVec Ideal S2000x256 .bf16) (i j : Fin 256) :
    matmul dot_S2000x256_S2000x256_S256x256_0_0_1_1_n_n none a b (constant S256x256 .f32 0x00000000#32) (ix2 i j)
      = ∑ r : Fin 2000, a (ix2 r i) * b (ix2 r j) := by
  simp only [matmul]
  rw [Ideal.matmul_constant_zero_apply, ← Equiv.sum_comp (ValueIdx.contrEquiv1 dot_S2000x256_S2000x256_S256x256_0_0_1_1_n_n 2000 rfl rfl).symm]
  refine Finset.sum_congr rfl fun k _ => ?_
  have hk := ValueIdx.contrEquiv1_symm_val dot_S2000x256_S2000x256_S256x256_0_0_1_1_n_n 2000 rfl rfl k
  have el : dot_S2000x256_S2000x256_S256x256_0_0_1_1_n_n.lhsIdx (ix2 i j) ((ValueIdx.contrEquiv1 dot_S2000x256_S2000x256_S256x256_0_0_1_1_n_n 2000 rfl rfl).symm k) = ix2 k i := funext fun c => Fin.ext (by
    match c with
    | ⟨0, _⟩ => exact (lhs_row _ _).trans hk
    | ⟨1, _⟩ => exact lhs_col _ _)
  have er : dot_S2000x256_S2000x256_S256x256_0_0_1_1_n_n.rhsIdx (ix2 i j) ((ValueIdx.contrEquiv1 dot_S2000x256_S2000x256_S256x256_0_0_1_1_n_n 2000 rfl rfl).symm k) = ix2 k j := funext fun c => Fin.ext (by
    match c with
    | ⟨0, _⟩ => exact (rhs_row _ _).trans hk
    | ⟨1, _⟩ => exact rhs_col _ _)
  rw [el, er]

/-! ## The accumulating step -/

/-- The first accumulator after a step: its old value plus the product's element. -/
theorem pay8_apply (x0 : Vec Ideal S2000x256 .bf16) (x1 : Vec Ideal S2000x256 .f32) (acc : Vec Ideal S256x256 .f32) (i j : Fin 256) :
    k0_pay8 (F := Ideal) x0 x1 acc (ix2 i j) = acc (ix2 i j) + ∑ r : Fin 2000, x0 (ix2 r i) * x1 (ix2 r j) := by
  unfold k0_pay8 k0_pay7
  rw [shapeCast_self, shapeCast_self]
  refine (ValueIdx.addf_apply _ _ _).trans ?_
  rw [matmul_zero_apply]
  rfl

/-- The second accumulator after a step. -/
theorem pay9_apply (x0 : Vec Ideal S2000x256 .bf16) (x1 : Vec Ideal S2000x256 .f32) (acc : Vec Ideal S256x256 .f32) (i j : Fin 256) :
    k0_pay9 (F := Ideal) x0 x1 acc (ix2 i j) = acc (ix2 i j) + ∑ r : Fin 2000, x0 (ix2 r i) * x1 (ix2 r j) := by
  unfold k0_pay9 k0_pay7
  rw [shapeCast_self, shapeCast_self]
  refine (ValueIdx.addf_apply _ _ _).trans ?_
  rw [matmul_zero_apply]
  rfl

/-- The third accumulator after a step. -/
theorem pay10_apply (x0 : Vec Ideal S2000x256 .bf16) (x1 : Vec Ideal S2000x256 .f32) (acc : Vec Ideal S256x256 .f32) (i j : Fin 256) :
    k0_pay10 (F := Ideal) x0 x1 acc (ix2 i j) = acc (ix2 i j) + ∑ r : Fin 2000, x0 (ix2 r i) * x1 (ix2 r j) := by
  unfold k0_pay10 k0_pay7
  rw [shapeCast_self, shapeCast_self]
  refine (ValueIdx.addf_apply _ _ _).trans ?_
  rw [matmul_zero_apply]
  rfl

/-! ## The first step's zero splat -/

/-- The first accumulator's initial value is zero everywhere. -/
theorem pay4_apply (i j : Fin 256) : k0_pay4 (F := Ideal) (ix2 i j) = 0 := by
  unfold k0_pay4
  rw [shapeCast_self]
  exact Ideal.ofBits_zero_f32

/-- The second accumulator's initial value is zero everywhere. -/
theorem pay5_apply (i j : Fin 256) : k0_pay5 (F := Ideal) (ix2 i j) = 0 := by
  unfold k0_pay5
  rw [shapeCast_self]
  exact Ideal.ofBits_zero_f32

/-- The third accumulator's initial value is zero everywhere. -/
theorem pay6_apply (i j : Fin 256) : k0_pay6 (F := Ideal) (ix2 i j) = 0 := by
  unfold k0_pay6
  rw [shapeCast_self]
  exact Ideal.ofBits_zero_f32

/-! ## The last step's stored block -/

/-- The stored [1,256,256] block reads the first accumulator at the two trailing coordinates. -/
theorem pay1_apply (v : Vec Ideal S256x256 .f32) (i j : Fin 256) :
    k0_pay1 (F := Ideal) v (ix3 (0 : Fin 1) i j) = v (ix2 i j) := by
  unfold k0_pay1
  exact ValueIdx.shapeCast_ab_1ab_apply v _ 0 i j

/-- The same for the second accumulator. -/
theorem pay2_apply (v : Vec Ideal S256x256 .f32) (i j : Fin 256) :
    k0_pay2 (F := Ideal) v (ix3 (0 : Fin 1) i j) = v (ix2 i j) := by
  unfold k0_pay2
  exact ValueIdx.shapeCast_ab_1ab_apply v _ 0 i j

/-- The same for the third accumulator. -/
theorem pay3_apply (v : Vec Ideal S256x256 .f32) (i j : Fin 256) :
    k0_pay3 (F := Ideal) v (ix3 (0 : Fin 1) i j) = v (ix2 i j) := by
  unfold k0_pay3
  exact ValueIdx.shapeCast_ab_1ab_apply v _ 0 i j

end Cert.KernelIdeal.Pay
-- ==== Proof.KI.R0Blocks.lean ====
import proofs.«142304_j59837484368571_2_alg».proof.Proof.KI.R0Frame
import Idealize.ShloMosaic.Lib.Pipeline.Value
import Idealize.ShloMosaic.Lib.ValueIdx
import Idealize.ShloMosaic.Lib.Tactic

/-!
# Region 0: its blocks as entries of the arrays

The first region runs over a grid of `2 × 25` points; point `t = 25 · h + k` is step `k` of half `h`. Each of its four
input windows reads, at point `t`, rows `2000 t … 2000 t + 1999` of a `100000 × 256` array. Each of its three output
windows holds a `1 × 256 × 256` block of a `2 × 256 × 256` array, block `h` at every point of half `h`, and is written
back only at the half's last step, `t = 25 · h + 24`. So after the region, slab `h` of each output array is what the
half's last point left in the window's buffer.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b))

/-! ## The index maps, decided over the 50 grid points -/

/-- An input window is at row block `t`, column block 0 at point `t`. -/
theorem index_facts0_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- An output window is at slab `t / 25` (the point's half), block 0 on the other two axes. -/
theorem index_facts0_out : ∀ t : Fin cfg0.N,
    (win0_4.index t (0 : Fin 3) = t.val / 25 ∧ win0_4.index t (1 : Fin 3) = 0 ∧ win0_4.index t (2 : Fin 3) = 0)
    ∧ (win0_5.index t (0 : Fin 3) = t.val / 25 ∧ win0_5.index t (1 : Fin 3) = 0 ∧ win0_5.index t (2 : Fin 3) = 0)
    ∧ (win0_6.index t (0 : Fin 3) = t.val / 25 ∧ win0_6.index t (1 : Fin 3) = 0 ∧ win0_6.index t (2 : Fin 3) = 0) :=
  (by decide +kernel : ∀ t : Fin grid0.N, _)

/-! ## The input blocks as rows of the arrays -/

/-- Row `r` of input window 0's block at point `t` is row `2000 t + r` of its array. -/
theorem iblk0_0_apply (c : Dev nD) (t : Fin cfg0.N) (r : Fin 2000) (q : Fin 256) (n : Fin 100000) (hn : n.val = 2000 * t.val + r.val) :
    (iblk0 V c 0 t : Vec F S2000x256 .bf16) (ix2 r q) = (V c main_v1 : S100000x256.Idx → Elt F .bf16) (ix2 n q) := by
  obtain ⟨h0, h1⟩ := (index_facts0_in t).1
  unfold iblk0
  rw [View.read_apply]
  show V c main_v1 _ = V c main_v1 _
  refine congrArg _ (funext fun a => Fin.ext ?_)
  match a with
  | ⟨0, _⟩ => show win0_0.index t (0 : Fin 2) * 2000 + 1 * r.val = n.val; omega
  | ⟨1, _⟩ => show win0_0.index t (1 : Fin 2) * 256 + 1 * q.val = q.val; omega

/-- Row `r` of input window 1's block at point `t` is row `2000 t + r` of its array. -/
theorem iblk0_1_apply (c : Dev nD) (t : Fin cfg0.N) (r : Fin 2000) (q : Fin 256) (n : Fin 100000) (hn : n.val = 2000 * t.val + r.val) :
    (iblk0 V c 1 t : Vec F S2000x256 .f32) (ix2 r q) = (V c main_arg0 : S100000x256.Idx → Elt F .f32) (ix2 n q) := by
  obtain ⟨h0, h1⟩ := (index_facts0_in t).2.1
  unfold iblk0
  rw [View.read_apply]
  show V c main_arg0 _ = V c main_arg0 _
  refine congrArg _ (funext fun a => Fin.ext ?_)
  match a with
  | ⟨0, _⟩ => show win0_1.index t (0 : Fin 2) * 2000 + 1 * r.val = n.val; omega
  | ⟨1, _⟩ => show win0_1.index t (1 : Fin 2) * 256 + 1 * q.val = q.val; omega

/-- Row `r` of input window 2's block at point `t` is row `2000 t + r` of its array. -/
theorem iblk0_2_apply (c : Dev nD) (t : Fin cfg0.N) (r : Fin 2000) (q : Fin 256) (n : Fin 100000) (hn : n.val = 2000 * t.val + r.val) :
    (iblk0 V c 2 t : Vec F S2000x256 .f32) (ix2 r q) = (V c main_arg1 : S100000x256.Idx → Elt F .f32) (ix2 n q) := by
  obtain ⟨h0, h1⟩ := (index_facts0_in t).2.2.1
  unfold iblk0
  rw [View.read_apply]
  show V c main_arg1 _ = V c main_arg1 _
  refine congrArg _ (funext fun a => Fin.ext ?_)
  match a with
  | ⟨0, _⟩ => show win0_2.index t (0 : Fin 2) * 2000 + 1 * r.val = n.val; omega
  | ⟨1, _⟩ => show win0_2.index t (1 : Fin 2) * 256 + 1 * q.val = q.val; omega

/-- Row `r` of input window 3's block at point `t` is row `2000 t + r` of its array. -/
theorem iblk0_3_apply (c : Dev nD) (t : Fin cfg0.N) (r : Fin 2000) (q : Fin 256) (n : Fin 100000) (hn : n.val = 2000 * t.val + r.val) :
    (iblk0 V c 3 t : Vec F S2000x256 .f32) (ix2 r q) = (V c main_arg2 : S100000x256.Idx → Elt F .f32) (ix2 n q) := by
  obtain ⟨h0, h1⟩ := (index_facts0_in t).2.2.2
  unfold iblk0
  rw [View.read_apply]
  show V c main_arg2 _ = V c main_arg2 _
  refine congrArg _ (funext fun a => Fin.ext ?_)
  match a with
  | ⟨0, _⟩ => show win0_3.index t (0 : Fin 2) * 2000 + 1 * r.val = n.val; omega
  | ⟨1, _⟩ => show win0_3.index t (1 : Fin 2) * 256 + 1 * q.val = q.val; omega

/-! ## The last point of a half -/

/-- The last point of half `h` is a point of the grid. -/
theorem last_lt (h : Fin 2) : 25 * h.val + 24 < cfg0.N := by
  have := h.isLt; rw [show cfg0.N = 50 from N_0]; omega

/-- What the accumulation leaves at a position does not depend on how the position is spelt. -/
theorem outsAt0_congr (c : Dev nD) {n n' : ℕ} (e : n = n') (hn : n < cfg0.N) (hn' : n' < cfg0.N) :
    outsAt0 V c n hn = outsAt0 V c n' hn' := by
  subst e; rfl

/-! ## Output window 4 -/

/-- Slab `h`, row `i`, column `j` of output window 4's array after the region: what the last point of half `h` left in
    the window's buffer. -/
def slab0_4At (c : Dev nD) (h : Fin 2) (i j : Fin 256) : Elt F .f32 :=
  (outsAt0 V c (25 * h.val + 24) (last_lt h)).1 (ix3 (0 : Fin 1) i j)

/-- The array. -/
def slab0_4 (c : Dev nD) : S2x256x256.Idx → Elt F .f32 := fun x => slab0_4At V c (x 0) (x 1) (x 2)

theorem slab0_4_apply (c : Dev nD) (h : Fin 2) (i j : Fin 256) : slab0_4 V c (ix3 h i j) = slab0_4At V c h i j := rfl

/-- At the half's last point, however the point is given. -/
theorem slab0_4At_eq (c : Dev nD) (h : Fin 2) (i j : Fin 256) (t : Fin cfg0.N) (ht : t.val = 25 * h.val + 24) :
    slab0_4At V c h i j = (outsAt0 V c t.val t.isLt).1 (ix3 (0 : Fin 1) i j) := by
  unfold slab0_4At
  rw [outsAt0_congr V c ht.symm (last_lt h) t.isLt]

/-- A point that writes window 4 back writes its half's slab. -/
theorem flushed0_4_eq (c : Dev nD) (t : Fin cfg0.N) (hf : (cfg0.win 4).flush t = true) :
    (dat0 V c).flushed 4 t = ((cfg0.win 4).blk t).view.read (Elt F) (slab0_4 V c) := by
  have h24 : t.val % 25 = 24 := (flush0_4 t).mp hf
  have hN : t.val < 50 := Nat.lt_of_lt_of_eq t.isLt N_0
  obtain ⟨h0, h1, h2⟩ := (index_facts0_out t).1
  show (cfg0.win 4).cut (grid0.coords t) ((dat0 V c).after 4 t) = _
  rw [after0_4]
  funext y
  obtain ⟨u, i, j, rfl⟩ : ∃ (u : Fin 1) (i j : Fin 256), y = ix3 u i j := ⟨y 0, y 1, y 2, eq_ix3 y⟩
  have hu : u = 0 := Fin.ext (by have := u.isLt; omega)
  subst hu
  have hh : t.val / 25 < 2 := by omega
  rw [View.read_apply]
  have hemb : ((cfg0.win 4).blk t).view.emb (ix3 (0 : Fin 1) i j) = ix3 (⟨t.val / 25, hh⟩ : Fin 2) i j := by
    funext a; apply Fin.ext
    match a with
    | ⟨0, _⟩ => show win0_4.index t (0 : Fin 3) * 1 + 1 * 0 = t.val / 25; omega
    | ⟨1, _⟩ => show win0_4.index t (1 : Fin 3) * 256 + 1 * i.val = i.val; omega
    | ⟨2, _⟩ => show win0_4.index t (2 : Fin 3) * 256 + 1 * j.val = j.val; omega
  rw [hemb, slab0_4_apply, slab0_4At_eq V c ⟨t.val / 25, hh⟩ i j t (by show t.val = 25 * (t.val / 25) + 24; omega)]
  rfl

/-- An index of the array is in point `t`'s block iff each coordinate is in the block's range on its axis. -/
theorem mem_blk0_4 (t : Fin cfg0.N) (x : S2x256x256.Idx) :
    x ∈ ((cfg0.win 4).blk t).view.set ↔ ∀ a : Fin 3, win0_4.index t a * S1x256x256.size a ≤ (x a).val ∧ (x a).val < win0_4.index t a * S1x256x256.size a + S1x256x256.size a := by
  show x ∈ ((View.whole main_v2_0).slice (win0_4.rect t)).set ↔ _
  rw [View.set_slice_whole, Rect.mem_set_unit]
  exact Iff.rfl

/-- Slab `h` lies in the block of the last point of half `h`, which writes the window back. -/
theorem covered0_4 (x : S2x256x256.Idx) : ∃ t : Fin cfg0.N, (cfg0.win 4).flush t = true ∧ x ∈ ((cfg0.win 4).blk t).view.set := by
  have hx0 : (x 0).val < 2 := (x 0).isLt
  have hx1 : (x 1).val < 256 := (x 1).isLt
  have hx2 : (x 2).val < 256 := (x 2).isLt
  obtain ⟨t, ht⟩ : ∃ t : Fin cfg0.N, t.val = 25 * (x 0).val + 24 := ⟨⟨_, last_lt ⟨(x 0).val, hx0⟩⟩, rfl⟩
  obtain ⟨h0, h1, h2⟩ := (index_facts0_out t).1
  refine ⟨t, (flush0_4 t).mpr (by omega), ?_⟩
  rw [mem_blk0_4]
  intro a
  match a with
  | ⟨0, _⟩ => show win0_4.index t (0 : Fin 3) * 1 ≤ (x 0).val ∧ (x 0).val < win0_4.index t (0 : Fin 3) * 1 + 1; omega
  | ⟨1, _⟩ => show win0_4.index t (1 : Fin 3) * 256 ≤ (x 1).val ∧ (x 1).val < win0_4.index t (1 : Fin 3) * 256 + 256; omega
  | ⟨2, _⟩ => show win0_4.index t (2 : Fin 3) * 256 ≤ (x 2).val ∧ (x 2).val < win0_4.index t (2 : Fin 3) * 256 + 256; omega

/-- Output window 4's array after the region. -/
theorem final0_4_fun (c : Dev nD) : (dat0 V c).arrAt 4 cfg0.N = slab0_4 V c :=
  (dat0 V c).arrAt_eq_of_cover 4 (slab0_4 V c) (fun t hf => flushed0_4_eq V c t hf) covered0_4

/-- Entry by entry. -/
theorem final0_4 (c : Dev nD) (h : Fin 2) (i j : Fin 256) :
    ((dat0 V c).arrAt 4 cfg0.N : S2x256x256.Idx → Elt F .f32) (ix3 h i j)
      = (outsAt0 V c (25 * h.val + 24) (by have := h.isLt; rw [show cfg0.N = 50 from N_0]; omega)).1 (ix3 (0 : Fin 1) i j) := by
  rw [final0_4_fun, slab0_4_apply]
  rfl

/-! ## Output window 5 -/

/-- Slab `h`, row `i`, column `j` of output window 5's array after the region: what the last point of half `h` left in
    the window's buffer. -/
def slab0_5At (c : Dev nD) (h : Fin 2) (i j : Fin 256) : Elt F .f32 :=
  (outsAt0 V c (25 * h.val + 24) (last_lt h)).2.1 (ix3 (0 : Fin 1) i j)

/-- The array. -/
def slab0_5 (c : Dev nD) : S2x256x256.Idx → Elt F .f32 := fun x => slab0_5At V c (x 0) (x 1) (x 2)

theorem slab0_5_apply (c : Dev nD) (h : Fin 2) (i j : Fin 256) : slab0_5 V c (ix3 h i j) = slab0_5At V c h i j := rfl

/-- At the half's last point, however the point is given. -/
theorem slab0_5At_eq (c : Dev nD) (h : Fin 2) (i j : Fin 256) (t : Fin cfg0.N) (ht : t.val = 25 * h.val + 24) :
    slab0_5At V c h i j = (outsAt0 V c t.val t.isLt).2.1 (ix3 (0 : Fin 1) i j) := by
  unfold slab0_5At
  rw [outsAt0_congr V c ht.symm (last_lt h) t.isLt]

/-- A point that writes window 5 back writes its half's slab. -/
theorem flushed0_5_eq (c : Dev nD) (t : Fin cfg0.N) (hf : (cfg0.win 5).flush t = true) :
    (dat0 V c).flushed 5 t = ((cfg0.win 5).blk t).view.read (Elt F) (slab0_5 V c) := by
  have h24 : t.val % 25 = 24 := (flush0_5 t).mp hf
  have hN : t.val < 50 := Nat.lt_of_lt_of_eq t.isLt N_0
  obtain ⟨h0, h1, h2⟩ := (index_facts0_out t).2.1
  show (cfg0.win 5).cut (grid0.coords t) ((dat0 V c).after 5 t) = _
  rw [after0_5]
  funext y
  obtain ⟨u, i, j, rfl⟩ : ∃ (u : Fin 1) (i j : Fin 256), y = ix3 u i j := ⟨y 0, y 1, y 2, eq_ix3 y⟩
  have hu : u = 0 := Fin.ext (by have := u.isLt; omega)
  subst hu
  have hh : t.val / 25 < 2 := by omega
  rw [View.read_apply]
  have hemb : ((cfg0.win 5).blk t).view.emb (ix3 (0 : Fin 1) i j) = ix3 (⟨t.val / 25, hh⟩ : Fin 2) i j := by
    funext a; apply Fin.ext
    match a with
    | ⟨0, _⟩ => show win0_5.index t (0 : Fin 3) * 1 + 1 * 0 = t.val / 25; omega
    | ⟨1, _⟩ => show win0_5.index t (1 : Fin 3) * 256 + 1 * i.val = i.val; omega
    | ⟨2, _⟩ => show win0_5.index t (2 : Fin 3) * 256 + 1 * j.val = j.val; omega
  rw [hemb, slab0_5_apply, slab0_5At_eq V c ⟨t.val / 25, hh⟩ i j t (by show t.val = 25 * (t.val / 25) + 24; omega)]
  rfl

/-- An index of the array is in point `t`'s block iff each coordinate is in the block's range on its axis. -/
theorem mem_blk0_5 (t : Fin cfg0.N) (x : S2x256x256.Idx) :
    x ∈ ((cfg0.win 5).blk t).view.set ↔ ∀ a : Fin 3, win0_5.index t a * S1x256x256.size a ≤ (x a).val ∧ (x a).val < win0_5.index t a * S1x256x256.size a + S1x256x256.size a := by
  show x ∈ ((View.whole main_v2_1).slice (win0_5.rect t)).set ↔ _
  rw [View.set_slice_whole, Rect.mem_set_unit]
  exact Iff.rfl

/-- Slab `h` lies in the block of the last point of half `h`, which writes the window back. -/
theorem covered0_5 (x : S2x256x256.Idx) : ∃ t : Fin cfg0.N, (cfg0.win 5).flush t = true ∧ x ∈ ((cfg0.win 5).blk t).view.set := by
  have hx0 : (x 0).val < 2 := (x 0).isLt
  have hx1 : (x 1).val < 256 := (x 1).isLt
  have hx2 : (x 2).val < 256 := (x 2).isLt
  obtain ⟨t, ht⟩ : ∃ t : Fin cfg0.N, t.val = 25 * (x 0).val + 24 := ⟨⟨_, last_lt ⟨(x 0).val, hx0⟩⟩, rfl⟩
  obtain ⟨h0, h1, h2⟩ := (index_facts0_out t).2.1
  refine ⟨t, (flush0_5 t).mpr (by omega), ?_⟩
  rw [mem_blk0_5]
  intro a
  match a with
  | ⟨0, _⟩ => show win0_5.index t (0 : Fin 3) * 1 ≤ (x 0).val ∧ (x 0).val < win0_5.index t (0 : Fin 3) * 1 + 1; omega
  | ⟨1, _⟩ => show win0_5.index t (1 : Fin 3) * 256 ≤ (x 1).val ∧ (x 1).val < win0_5.index t (1 : Fin 3) * 256 + 256; omega
  | ⟨2, _⟩ => show win0_5.index t (2 : Fin 3) * 256 ≤ (x 2).val ∧ (x 2).val < win0_5.index t (2 : Fin 3) * 256 + 256; omega

/-- Output window 5's array after the region. -/
theorem final0_5_fun (c : Dev nD) : (dat0 V c).arrAt 5 cfg0.N = slab0_5 V c :=
  (dat0 V c).arrAt_eq_of_cover 5 (slab0_5 V c) (fun t hf => flushed0_5_eq V c t hf) covered0_5

/-- Entry by entry. -/
theorem final0_5 (c : Dev nD) (h : Fin 2) (i j : Fin 256) :
    ((dat0 V c).arrAt 5 cfg0.N : S2x256x256.Idx → Elt F .f32) (ix3 h i j)
      = (outsAt0 V c (25 * h.val + 24) (by have := h.isLt; rw [show cfg0.N = 50 from N_0]; omega)).2.1 (ix3 (0 : Fin 1) i j) := by
  rw [final0_5_fun, slab0_5_apply]
  rfl

/-! ## Output window 6 -/

/-- Slab `h`, row `i`, column `j` of output window 6's array after the region: what the last point of half `h` left in
    the window's buffer. -/
def slab0_6At (c : Dev nD) (h : Fin 2) (i j : Fin 256) : Elt F .f32 :=
  (outsAt0 V c (25 * h.val + 24) (last_lt h)).2.2.1 (ix3 (0 : Fin 1) i j)

/-- The array. -/
def slab0_6 (c : Dev nD) : S2x256x256.Idx → Elt F .f32 := fun x => slab0_6At V c (x 0) (x 1) (x 2)

theorem slab0_6_apply (c : Dev nD) (h : Fin 2) (i j : Fin 256) : slab0_6 V c (ix3 h i j) = slab0_6At V c h i j := rfl

/-- At the half's last point, however the point is given. -/
theorem slab0_6At_eq (c : Dev nD) (h : Fin 2) (i j : Fin 256) (t : Fin cfg0.N) (ht : t.val = 25 * h.val + 24) :
    slab0_6At V c h i j = (outsAt0 V c t.val t.isLt).2.2.1 (ix3 (0 : Fin 1) i j) := by
  unfold slab0_6At
  rw [outsAt0_congr V c ht.symm (last_lt h) t.isLt]

/-- A point that writes window 6 back writes its half's slab. -/
theorem flushed0_6_eq (c : Dev nD) (t : Fin cfg0.N) (hf : (cfg0.win 6).flush t = true) :
    (dat0 V c).flushed 6 t = ((cfg0.win 6).blk t).view.read (Elt F) (slab0_6 V c) := by
  have h24 : t.val % 25 = 24 := (flush0_6 t).mp hf
  have hN : t.val < 50 := Nat.lt_of_lt_of_eq t.isLt N_0
  obtain ⟨h0, h1, h2⟩ := (index_facts0_out t).2.2
  show (cfg0.win 6).cut (grid0.coords t) ((dat0 V c).after 6 t) = _
  rw [after0_6]
  funext y
  obtain ⟨u, i, j, rfl⟩ : ∃ (u : Fin 1) (i j : Fin 256), y = ix3 u i j := ⟨y 0, y 1, y 2, eq_ix3 y⟩
  have hu : u = 0 := Fin.ext (by have := u.isLt; omega)
  subst hu
  have hh : t.val / 25 < 2 := by omega
  rw [View.read_apply]
  have hemb : ((cfg0.win 6).blk t).view.emb (ix3 (0 : Fin 1) i j) = ix3 (⟨t.val / 25, hh⟩ : Fin 2) i j := by
    funext a; apply Fin.ext
    match a with
    | ⟨0, _⟩ => show win0_6.index t (0 : Fin 3) * 1 + 1 * 0 = t.val / 25; omega
    | ⟨1, _⟩ => show win0_6.index t (1 : Fin 3) * 256 + 1 * i.val = i.val; omega
    | ⟨2, _⟩ => show win0_6.index t (2 : Fin 3) * 256 + 1 * j.val = j.val; omega
  rw [hemb, slab0_6_apply, slab0_6At_eq V c ⟨t.val / 25, hh⟩ i j t (by show t.val = 25 * (t.val / 25) + 24; omega)]
  rfl

/-- An index of the array is in point `t`'s block iff each coordinate is in the block's range on its axis. -/
theorem mem_blk0_6 (t : Fin cfg0.N) (x : S2x256x256.Idx) :
    x ∈ ((cfg0.win 6).blk t).view.set ↔ ∀ a : Fin 3, win0_6.index t a * S1x256x256.size a ≤ (x a).val ∧ (x a).val < win0_6.index t a * S1x256x256.size a + S1x256x256.size a := by
  show x ∈ ((View.whole main_v2_2).slice (win0_6.rect t)).set ↔ _
  rw [View.set_slice_whole, Rect.mem_set_unit]
  exact Iff.rfl

/-- Slab `h` lies in the block of the last point of half `h`, which writes the window back. -/
theorem covered0_6 (x : S2x256x256.Idx) : ∃ t : Fin cfg0.N, (cfg0.win 6).flush t = true ∧ x ∈ ((cfg0.win 6).blk t).view.set := by
  have hx0 : (x 0).val < 2 := (x 0).isLt
  have hx1 : (x 1).val < 256 := (x 1).isLt
  have hx2 : (x 2).val < 256 := (x 2).isLt
  obtain ⟨t, ht⟩ : ∃ t : Fin cfg0.N, t.val = 25 * (x 0).val + 24 := ⟨⟨_, last_lt ⟨(x 0).val, hx0⟩⟩, rfl⟩
  obtain ⟨h0, h1, h2⟩ := (index_facts0_out t).2.2
  refine ⟨t, (flush0_6 t).mpr (by omega), ?_⟩
  rw [mem_blk0_6]
  intro a
  match a with
  | ⟨0, _⟩ => show win0_6.index t (0 : Fin 3) * 1 ≤ (x 0).val ∧ (x 0).val < win0_6.index t (0 : Fin 3) * 1 + 1; omega
  | ⟨1, _⟩ => show win0_6.index t (1 : Fin 3) * 256 ≤ (x 1).val ∧ (x 1).val < win0_6.index t (1 : Fin 3) * 256 + 256; omega
  | ⟨2, _⟩ => show win0_6.index t (2 : Fin 3) * 256 ≤ (x 2).val ∧ (x 2).val < win0_6.index t (2 : Fin 3) * 256 + 256; omega

/-- Output window 6's array after the region. -/
theorem final0_6_fun (c : Dev nD) : (dat0 V c).arrAt 6 cfg0.N = slab0_6 V c :=
  (dat0 V c).arrAt_eq_of_cover 6 (slab0_6 V c) (fun t hf => flushed0_6_eq V c t hf) covered0_6

/-- Entry by entry. -/
theorem final0_6 (c : Dev nD) (h : Fin 2) (i j : Fin 256) :
    ((dat0 V c).arrAt 6 cfg0.N : S2x256x256.Idx → Elt F .f32) (ix3 h i j)
      = (outsAt0 V c (25 * h.val + 24) (by have := h.isLt; rw [show cfg0.N = 50 from N_0]; omega)).2.2.1 (ix3 (0 : Fin 1) i j) := by
  rw [final0_6_fun, slab0_6_apply]
  rfl

end Cert.KernelIdeal.Hand

end
-- ==== Proof.AccCore.lean ====
import Mathlib.Data.EReal.Basic
import Mathlib.Algebra.BigOperators.Intervals

/-!
The accumulation over one core's 25 consecutive steps, for an accumulator that is only defined at the
positions below a bound `N`.

Positions are numbered `n = 25·cc + k` with `cc` the core and `k < 25` the step. At step `0` of a core
the accumulator is reset and receives the first term (`0 + a n`); at every other step it is its value at
the previous position plus the new term. Hence at the core's last step it holds the sum of the core's 25
terms. Only `0 + x = x` and the recursion of a sum over an initial segment of the naturals are used.
-/

namespace Cert.SumSplit

/-- Within core `cc`, after step `k ≤ 24` the accumulator holds the sum of the core's terms `0 … k`. -/
theorem acc_core_upto (N : ℕ) (sc : (n : ℕ) → n < N → EReal) (a : ℕ → EReal)
    (hA : ∀ (n : ℕ) (hn : n < N), n % 25 = 0 → sc n hn = 0 + a n)
    (hB : ∀ (n : ℕ) (hn : n < N) (h : ¬ n % 25 = 0),
      sc n hn = sc (n - 1) (Nat.lt_of_le_of_lt (Nat.sub_le _ _) hn) + a n)
    (cc : ℕ) :
    ∀ (k : ℕ), k ≤ 24 → ∀ (h : 25 * cc + k < N),
      sc (25 * cc + k) h = ∑ k' ∈ Finset.range (k + 1), a (25 * cc + k') := by
  intro k
  induction k with
  | zero =>
    intro _ h
    rw [hA (25 * cc + 0) h (by omega), Finset.sum_range_one]
    exact zero_add _
  | succ n ih =>
    intro hk h
    -- the previous position, named by any term equal to `25·cc + n`, holds the sum of the terms `0 … n`
    have key : ∀ (m : ℕ) (hm : m < N), m = 25 * cc + n →
        sc m hm = ∑ k' ∈ Finset.range (n + 1), a (25 * cc + k') := by
      intro m hm e
      subst e
      exact ih (by omega) hm
    have hne : ¬ (25 * cc + (n + 1)) % 25 = 0 := by omega
    have e := key (25 * cc + (n + 1) - 1) (Nat.lt_of_le_of_lt (Nat.sub_le _ _) h) (by omega)
    rw [hB (25 * cc + (n + 1)) h hne, e, Finset.sum_range_succ _ (n + 1)]

/-- At a core's last step the accumulator holds the sum of the core's 25 terms. -/
theorem acc_core (N : ℕ) (sc : (n : ℕ) → n < N → EReal) (a : ℕ → EReal)
    (hA : ∀ (n : ℕ) (hn : n < N), n % 25 = 0 → sc n hn = 0 + a n)
    (hB : ∀ (n : ℕ) (hn : n < N) (h : ¬ n % 25 = 0),
      sc n hn = sc (n - 1) (Nat.lt_of_le_of_lt (Nat.sub_le _ _) hn) + a n)
    (cc : ℕ) (h : 25 * cc + 24 < N) :
    sc (25 * cc + 24) h = ∑ k ∈ Finset.range 25, a (25 * cc + k) :=
  acc_core_upto N sc a hA hB cc 24 (le_refl _) h

end Cert.SumSplit
-- ==== Proof.KI.R0Value.lean ====
import proofs.«142304_j59837484368571_2_alg».proof.Proof.KI.R0Pieces
import proofs.«142304_j59837484368571_2_alg».proof.Proof.KI.R0Pay
import proofs.«142304_j59837484368571_2_alg».proof.Proof.KI.R0Blocks
import proofs.«142304_j59837484368571_2_alg».proof.Proof.KI.ProdAt
import proofs.«142304_j59837484368571_2_alg».proof.Proof.AccCore

set_option maxRecDepth 16384

noncomputable section

namespace Cert.KernelIdeal.Hand

open Cert.KernelIdeal Cert.KernelIdeal.Gen Cert.KernelIdeal.Pay Cert.KernelIdeal.Join
open Idealize.ShloMosaic Idealize.ShloMosaic.TcCoe Idealize.ShloMosaic.Tactic
open Idealize.SL Idealize.SL.Sem
open Idealize.ShloMosaic.Pipeline (Dat)
open Idealize.ShloMosaic.ValueIdx (ix2 ix3)

/-! # The first kernel region's value, over the extended reals

With `wt` the transposed weights and `x` one of the three inputs, entry `(i, j)` of block `m`'s product is
`∑ r < 2000, wt[2000 m + r, i] · x[2000 m + r, j]`. Half `h` of a partial-sum array is the accumulation of the products
of blocks `25 h, …, 25 h + 24`, started from zero: their sum. -/

variable (V : (c : Dev nD) → (b : Ref sig .tc) → Buf (Elt Ideal) ((c : Thread nD τ).loc b))

theorem hN0 (t : Fin cfg0.N) : t.val < 50 := lt_of_lt_of_eq t.isLt (show cfg0.N = 50 from N_0)

/-- One step's arithmetic for view 0: the accumulator's entry plus the products of the step's 2000 rows. -/
theorem step0 (c : Dev nD) (t : Fin cfg0.N) (acc : Vec Ideal S256x256 .f32) (i j : Fin 256) :
    k0_pay8 (F := Ideal) (iblk0 V c 0 t) (iblk0 V c 1 t) acc (ix2 i j) = acc (ix2 i j) + stepSum (V c main_v1) (V c main_arg0) i j t.val := by
  refine (pay8_apply _ _ _ i j).trans ?_
  refine congrArg (acc (ix2 i j) + ·) ?_
  rw [stepSum_def]
  refine Finset.sum_congr rfl fun r _ => ?_
  have hN := hN0 t
  have hlt : t.val * 2000 + r.val < 100000 := by have := r.isLt; omega
  rw [Cert.SumSplit.extend_of_lt _ hlt, prodAt_apply]
  rw [iblk0_0_apply (F := Ideal) V c t r i ⟨_, hlt⟩ (by show t.val * 2000 + r.val = 2000 * t.val + r.val; omega),
    iblk0_1_apply (F := Ideal) V c t r j ⟨_, hlt⟩ (by show t.val * 2000 + r.val = 2000 * t.val + r.val; omega)]

/-- After a core's last step accumulator 0 holds, entry by entry, the sum over the core's 25 steps of the steps' block
    products: the accumulation (zero plus the first term, then term after term) is that sum. -/
theorem accum0 (c : Dev nD) (i j : Fin 256) (h : Fin 2) :
    ((outsAt0 V c (25 * h.val + 24) (last_lt h)).2.2.2.1 : Vec Ideal S256x256 .f32) (ix2 i j)
      = ∑ k ∈ Finset.range 25, stepSum (V c main_v1) (V c main_arg0) i j (25 * h.val + k) := by
  refine Cert.SumSplit.acc_core cfg0.N (fun n hn => ((outsAt0 V c n hn).2.2.2.1 : Vec Ideal S256x256 .f32) (ix2 i j))
    (fun n => stepSum (V c main_v1) (V c main_arg0) i j n) ?_ ?_ h.val (last_lt h)
  · intro n hn h0
    have h1 : ¬ n % 25 = 24 := by omega
    show ((outsAt0 V c n hn).2.2.2.1 : Vec Ideal S256x256 .f32) (ix2 i j) = 0 + stepSum (V c main_v1) (V c main_arg0) i j n
    rw [outsAt0_A V c ⟨n, hn⟩ h0 h1, tupA_sc0, step0, pay4_apply]
  · intro n hn h0
    show ((outsAt0 V c n hn).2.2.2.1 : Vec Ideal S256x256 .f32) (ix2 i j)
      = ((outsAt0 V c (n - 1) (Nat.lt_of_le_of_lt (Nat.sub_le _ _) hn)).2.2.2.1 : Vec Ideal S256x256 .f32) (ix2 i j) + stepSum (V c main_v1) (V c main_arg0) i j n
    by_cases h1 : n % 25 = 24
    · rw [outsAt0_C V c ⟨n, hn⟩ h0 h1, tupC_sc0, step0]
    · rw [outsAt0_B V c ⟨n, hn⟩ h0 h1, tupB_sc0, step0]

/-- Partial-sum array 0: entry `(h, i, j)` is the sum, over the 25 steps of half `h`, of the steps' block products. -/
theorem part_value_0 (c : Dev nD) (h : Fin 2) (i j : Fin 256) :
    ((dat0 V c).arrAt 4 cfg0.N : S2x256x256.Idx → EReal) (ix3 h i j)
      = ∑ k ∈ Finset.range 25, stepSum (V c main_v1) (V c main_arg0) i j (25 * h.val + k) := by
  have e : outsAt0 V c (25 * h.val + 24) (last_lt h) = _ :=
    outsAt0_C V c ⟨25 * h.val + 24, last_lt h⟩ (by show ¬ (25 * h.val + 24) % 25 = 0; omega) (by show (25 * h.val + 24) % 25 = 24; omega)
  have hs := (congrArg (fun T : Tup0 Ideal => (T.2.2.2.1 : Vec Ideal S256x256 .f32)) e).trans (tupC_sc0 V c _ _ _ _ _ _)
  refine (final0_4 V c h i j).trans ?_
  rw [e, tupC_out4, pay1_apply]
  exact (congrFun hs (ix2 i j)).symm.trans (accum0 V c i j h)

/-- One step's arithmetic for view 1: the accumulator's entry plus the products of the step's 2000 rows. -/
theorem step1 (c : Dev nD) (t : Fin cfg0.N) (acc : Vec Ideal S256x256 .f32) (i j : Fin 256) :
    k0_pay9 (F := Ideal) (iblk0 V c 0 t) (iblk0 V c 2 t) acc (ix2 i j) = acc (ix2 i j) + stepSum (V c main_v1) (V c main_arg1) i j t.val := by
  refine (pay9_apply _ _ _ i j).trans ?_
  refine congrArg (acc (ix2 i j) + ·) ?_
  rw [stepSum_def]
  refine Finset.sum_congr rfl fun r _ => ?_
  have hN := hN0 t
  have hlt : t.val * 2000 + r.val < 100000 := by have := r.isLt; omega
  rw [Cert.SumSplit.extend_of_lt _ hlt, prodAt_apply]
  rw [iblk0_0_apply (F := Ideal) V c t r i ⟨_, hlt⟩ (by show t.val * 2000 + r.val = 2000 * t.val + r.val; omega),
    iblk0_2_apply (F := Ideal) V c t r j ⟨_, hlt⟩ (by show t.val * 2000 + r.val = 2000 * t.val + r.val; omega)]

/-- After a core's last step accumulator 1 holds, entry by entry, the sum over the core's 25 steps of the steps' block
    products: the accumulation (zero plus the first term, then term after term) is that sum. -/
theorem accum1 (c : Dev nD) (i j : Fin 256) (h : Fin 2) :
    ((outsAt0 V c (25 * h.val + 24) (last_lt h)).2.2.2.2.1 : Vec Ideal S256x256 .f32) (ix2 i j)
      = ∑ k ∈ Finset.range 25, stepSum (V c main_v1) (V c main_arg1) i j (25 * h.val + k) := by
  refine Cert.SumSplit.acc_core cfg0.N (fun n hn => ((outsAt0 V c n hn).2.2.2.2.1 : Vec Ideal S256x256 .f32) (ix2 i j))
    (fun n => stepSum (V c main_v1) (V c main_arg1) i j n) ?_ ?_ h.val (last_lt h)
  · intro n hn h0
    have h1 : ¬ n % 25 = 24 := by omega
    show ((outsAt0 V c n hn).2.2.2.2.1 : Vec Ideal S256x256 .f32) (ix2 i j) = 0 + stepSum (V c main_v1) (V c main_arg1) i j n
    rw [outsAt0_A V c ⟨n, hn⟩ h0 h1, tupA_sc1, step1, pay5_apply]
  · intro n hn h0
    show ((outsAt0 V c n hn).2.2.2.2.1 : Vec Ideal S256x256 .f32) (ix2 i j)
      = ((outsAt0 V c (n - 1) (Nat.lt_of_le_of_lt (Nat.sub_le _ _) hn)).2.2.2.2.1 : Vec Ideal S256x256 .f32) (ix2 i j) + stepSum (V c main_v1) (V c main_arg1) i j n
    by_cases h1 : n % 25 = 24
    · rw [outsAt0_C V c ⟨n, hn⟩ h0 h1, tupC_sc1, step1]
    · rw [outsAt0_B V c ⟨n, hn⟩ h0 h1, tupB_sc1, step1]

/-- Partial-sum array 1: entry `(h, i, j)` is the sum, over the 25 steps of half `h`, of the steps' block products. -/
theorem part_value_1 (c : Dev nD) (h : Fin 2) (i j : Fin 256) :
    ((dat0 V c).arrAt 5 cfg0.N : S2x256x256.Idx → EReal) (ix3 h i j)
      = ∑ k ∈ Finset.range 25, stepSum (V c main_v1) (V c main_arg1) i j (25 * h.val + k) := by
  have e : outsAt0 V c (25 * h.val + 24) (last_lt h) = _ :=
    outsAt0_C V c ⟨25 * h.val + 24, last_lt h⟩ (by show ¬ (25 * h.val + 24) % 25 = 0; omega) (by show (25 * h.val + 24) % 25 = 24; omega)
  have hs := (congrArg (fun T : Tup0 Ideal => (T.2.2.2.2.1 : Vec Ideal S256x256 .f32)) e).trans (tupC_sc1 V c _ _ _ _ _ _)
  refine (final0_5 V c h i j).trans ?_
  rw [e, tupC_out5, pay2_apply]
  exact (congrFun hs (ix2 i j)).symm.trans (accum1 V c i j h)

/-- One step's arithmetic for view 2: the accumulator's entry plus the products of the step's 2000 rows. -/
theorem step2 (c : Dev nD) (t : Fin cfg0.N) (acc : Vec Ideal S256x256 .f32) (i j : Fin 256) :
    k0_pay10 (F := Ideal) (iblk0 V c 0 t) (iblk0 V c 3 t) acc (ix2 i j) = acc (ix2 i j) + stepSum (V c main_v1) (V c main_arg2) i j t.val := by
  refine (pay10_apply _ _ _ i j).trans ?_
  refine congrArg (acc (ix2 i j) + ·) ?_
  rw [stepSum_def]
  refine Finset.sum_congr rfl fun r _ => ?_
  have hN := hN0 t
  have hlt : t.val * 2000 + r.val < 100000 := by have := r.isLt; omega
  rw [Cert.SumSplit.extend_of_lt _ hlt, prodAt_apply]
  rw [iblk0_0_apply (F := Ideal) V c t r i ⟨_, hlt⟩ (by show t.val * 2000 + r.val = 2000 * t.val + r.val; omega),
    iblk0_3_apply (F := Ideal) V c t r j ⟨_, hlt⟩ (by show t.val * 2000 + r.val = 2000 * t.val + r.val; omega)]

/-- After a core's last step accumulator 2 holds, entry by entry, the sum over the core's 25 steps of the steps' block
    products: the accumulation (zero plus the first term, then term after term) is that sum. -/
theorem accum2 (c : Dev nD) (i j : Fin 256) (h : Fin 2) :
    ((outsAt0 V c (25 * h.val + 24) (last_lt h)).2.2.2.2.2 : Vec Ideal S256x256 .f32) (ix2 i j)
      = ∑ k ∈ Finset.range 25, stepSum (V c main_v1) (V c main_arg2) i j (25 * h.val + k) := by
  refine Cert.SumSplit.acc_core cfg0.N (fun n hn => ((outsAt0 V c n hn).2.2.2.2.2 : Vec Ideal S256x256 .f32) (ix2 i j))
    (fun n => stepSum (V c main_v1) (V c main_arg2) i j n) ?_ ?_ h.val (last_lt h)
  · intro n hn h0
    have h1 : ¬ n % 25 = 24 := by omega
    show ((outsAt0 V c n hn).2.2.2.2.2 : Vec Ideal S256x256 .f32) (ix2 i j) = 0 + stepSum (V c main_v1) (V c main_arg2) i j n
    rw [outsAt0_A V c ⟨n, hn⟩ h0 h1, tupA_sc2, step2, pay6_apply]
  · intro n hn h0
    show ((outsAt0 V c n hn).2.2.2.2.2 : Vec Ideal S256x256 .f32) (ix2 i j)
      = ((outsAt0 V c (n - 1) (Nat.lt_of_le_of_lt (Nat.sub_le _ _) hn)).2.2.2.2.2 : Vec Ideal S256x256 .f32) (ix2 i j) + stepSum (V c main_v1) (V c main_arg2) i j n
    by_cases h1 : n % 25 = 24
    · rw [outsAt0_C V c ⟨n, hn⟩ h0 h1, tupC_sc2, step2]
    · rw [outsAt0_B V c ⟨n, hn⟩ h0 h1, tupB_sc2, step2]

/-- Partial-sum array 2: entry `(h, i, j)` is the sum, over the 25 steps of half `h`, of the steps' block products. -/
theorem part_value_2 (c : Dev nD) (h : Fin 2) (i j : Fin 256) :
    ((dat0 V c).arrAt 6 cfg0.N : S2x256x256.Idx → EReal) (ix3 h i j)
      = ∑ k ∈ Finset.range 25, stepSum (V c main_v1) (V c main_arg2) i j (25 * h.val + k) := by
  have e : outsAt0 V c (25 * h.val + 24) (last_lt h) = _ :=
    outsAt0_C V c ⟨25 * h.val + 24, last_lt h⟩ (by show ¬ (25 * h.val + 24) % 25 = 0; omega) (by show (25 * h.val + 24) % 25 = 24; omega)
  have hs := (congrArg (fun T : Tup0 Ideal => (T.2.2.2.2.2 : Vec Ideal S256x256 .f32)) e).trans (tupC_sc2 V c _ _ _ _ _ _)
  refine (final0_6 V c h i j).trans ?_
  rw [e, tupC_out6, pay3_apply]
  exact (congrFun hs (ix2 i j)).symm.trans (accum2 V c i j h)

end Cert.KernelIdeal.Hand

end
-- ==== Proof.KI.Bridge.lean ====
import proofs.«142304_j59837484368571_2_alg».proof.Proof.KI.Run
import proofs.«142304_j59837484368571_2_alg».proof.Proof.KI.R1Value
import proofs.«142304_j59837484368571_2_alg».proof.Proof.KI.HostRead
import proofs.«142304_j59837484368571_2_alg».proof.Proof.RefValue
import proofs.«142304_j59837484368571_2_alg».proof.Proof.KI.Join
import proofs.«142304_j59837484368571_2_alg».proof.Proof.KI.R0Value
import Idealize.ShloMosaic.Lib.ValueIdx

/-!
# The kernel program's result is the reference's function of the arguments

At the ideal instance floats are extended reals and every operation is exact. Write `x₀, x₁, x₂` for the three
`100000 × 256` inputs, `Wm` for the `256 × 100000` weight matrix and `h` for the `1 × 256` row vector, all as
launched.

* Region 0 leaves, in each of its three outputs, two `256 × 256` halves whose entries are sums of the products
  `Wm[i, n] · x_k[n, j]` over one half of the 100000 contracted positions, taken block by block. Added, the two halves
  are the full product `Wm · x_k`: a finite sum re-associated and re-indexed.
* The second host stretch turns the three products into the softmax weights `β` (three rows of 256) by the same
  operations the reference applies, and slices out the three rows.
* Region 1 leaves `(β[0, j] · x₀[n, j] + β[1, j] · x₁[n, j]) + β[2, j] · x₂[n, j]` at row `n`, column `j`.

No stretch and no region changes an argument array, so the inputs the second region reads are the launch contents.
Entry by entry this is the reference's result.
-/

noncomputable section

namespace Cert.KernelIdeal.Hand

open Cert.KernelIdeal Cert.KernelIdeal.Gen Idealize.ShloMosaic Idealize.ShloMosaic.TcCoe Idealize.SL.Sem
open Cert.KernelIdeal.HostRead Cert.KernelIdeal.Join
open Idealize.ShloMosaic.ValueIdx (ix2 ix3 eq_ix2)

variable (m : (ℓ : Loc nD τ sig) → Buf (Elt Ideal) ℓ) (ρ : Dev nD → PrngReg)

/-! ## The arguments as the regions find them -/

/-- The first host stretch writes no argument: region 0 is entered with each argument as launched. -/
theorem V1_main_arg0 (c : Dev nD) : V1 m ρ c main_arg0 = m ((c.tc : Thread nD τ).loc main_arg0) :=
  host0_keeps (W0 m ρ c) main_arg0 (by decide)
theorem V1_main_arg1 (c : Dev nD) : V1 m ρ c main_arg1 = m ((c.tc : Thread nD τ).loc main_arg1) :=
  host0_keeps (W0 m ρ c) main_arg1 (by decide)
theorem V1_main_arg2 (c : Dev nD) : V1 m ρ c main_arg2 = m ((c.tc : Thread nD τ).loc main_arg2) :=
  host0_keeps (W0 m ρ c) main_arg2 (by decide)

/-- Region 0 reads the three inputs through input windows, which are never written back; the row vector it does
    not stage at all. So at its exit the four hold their launch contents. -/
theorem W2_main_arg0 (c : Dev nD) : W2 m ρ c (Proc.devRef .tc main_arg0) = m ((c.tc : Thread nD τ).loc main_arg0) :=
  ((W2_arr m ρ c 1).trans (((dat0 (V1 m ρ) c).arrAt_in 1 rfl _).trans (A_eq0 (V1 m ρ) c 1))).trans (V1_main_arg0 m ρ c)
theorem W2_main_arg1 (c : Dev nD) : W2 m ρ c (Proc.devRef .tc main_arg1) = m ((c.tc : Thread nD τ).loc main_arg1) :=
  ((W2_arr m ρ c 2).trans (((dat0 (V1 m ρ) c).arrAt_in 2 rfl _).trans (A_eq0 (V1 m ρ) c 2))).trans (V1_main_arg1 m ρ c)
theorem W2_main_arg2 (c : Dev nD) : W2 m ρ c (Proc.devRef .tc main_arg2) = m ((c.tc : Thread nD τ).loc main_arg2) :=
  ((W2_arr m ρ c 3).trans (((dat0 (V1 m ρ) c).arrAt_in 3 rfl _).trans (A_eq0 (V1 m ρ) c 3))).trans (V1_main_arg2 m ρ c)
theorem W2_main_arg4 (c : Dev nD) : W2 m ρ c (Proc.devRef .tc main_arg4) = m ((c.tc : Thread nD τ).loc main_arg4) :=
  (W2_of_ne m ρ c main_arg4 (by decide)).trans (host0_keeps (W0 m ρ c) main_arg4 (by decide))

/-- The second host stretch writes no argument either: region 1 is entered with the three inputs as launched. -/
theorem V3_main_arg0 (c : Dev nD) : V3 m ρ c main_arg0 = m ((c.tc : Thread nD τ).loc main_arg0) :=
  (host1_keeps (W2 m ρ c) main_arg0 (by decide)).trans (W2_main_arg0 m ρ c)
theorem V3_main_arg1 (c : Dev nD) : V3 m ρ c main_arg1 = m ((c.tc : Thread nD τ).loc main_arg1) :=
  (host1_keeps (W2 m ρ c) main_arg1 (by decide)).trans (W2_main_arg1 m ρ c)
theorem V3_main_arg2 (c : Dev nD) : V3 m ρ c main_arg2 = m ((c.tc : Thread nD τ).loc main_arg2) :=
  (host1_keeps (W2 m ρ c) main_arg2 (by decide)).trans (W2_main_arg2 m ρ c)

/-! ## The three partial sums, added, are the three products -/

/-- Region 0's first output, its two halves added, is `Wm · x₀`: each half's entry is the sum of 25 blocks of 2000
    products (region 0's value), the staged weights are the transpose of `Wm` (the first host stretch), and the two
    halves' blocks together are the 100000 contracted positions. -/
theorem part_dot_0 (c : Dev nD) :
    partSum (W2 m ρ c (Proc.devRef .tc main_v2_0)) = Host.dotGeneral (F := Ideal) (φ₁ := .f32) (φ₂ := .f32) Cert.ReferenceIdeal.dot_S256x100000_S100000x256_S256x256_1_0_0_1_n_n none (m ((c.tc : Thread nD τ).loc main_arg3)) (m ((c.tc : Thread nD τ).loc main_arg0)) := by
  have h := partSum_eq_dot (W2 m ρ c (Proc.devRef .tc main_v2_0)) (V1 m ρ c main_v1) (V1 m ρ c main_arg0) (m ((c.tc : Thread nD τ).loc main_arg3))
    (fun cc i j => by rw [W2_main_v2_0]; exact part_value_0 (V1 m ρ) c cc i j)
    (fun n i => host0_wt (W0 m ρ c) n i)
  rwa [V1_main_arg0 m ρ c] at h
theorem part_dot_1 (c : Dev nD) :
    partSum (W2 m ρ c (Proc.devRef .tc main_v2_1)) = Host.dotGeneral (F := Ideal) (φ₁ := .f32) (φ₂ := .f32) Cert.ReferenceIdeal.dot_S256x100000_S100000x256_S256x256_1_0_0_1_n_n none (m ((c.tc : Thread nD τ).loc main_arg3)) (m ((c.tc : Thread nD τ).loc main_arg1)) := by
  have h := partSum_eq_dot (W2 m ρ c (Proc.devRef .tc main_v2_1)) (V1 m ρ c main_v1) (V1 m ρ c main_arg1) (m ((c.tc : Thread nD τ).loc main_arg3))
    (fun cc i j => by rw [W2_main_v2_1]; exact part_value_1 (V1 m ρ) c cc i j)
    (fun n i => host0_wt (W0 m ρ c) n i)
  rwa [V1_main_arg1 m ρ c] at h
theorem part_dot_2 (c : Dev nD) :
    partSum (W2 m ρ c (Proc.devRef .tc main_v2_2)) = Host.dotGeneral (F := Ideal) (φ₁ := .f32) (φ₂ := .f32) Cert.ReferenceIdeal.dot_S256x100000_S100000x256_S256x256_1_0_0_1_n_n none (m ((c.tc : Thread nD τ).loc main_arg3)) (m ((c.tc : Thread nD τ).loc main_arg2)) := by
  have h := partSum_eq_dot (W2 m ρ c (Proc.devRef .tc main_v2_2)) (V1 m ρ c main_v1) (V1 m ρ c main_arg2) (m ((c.tc : Thread nD τ).loc main_arg3))
    (fun cc i j => by rw [W2_main_v2_2]; exact part_value_2 (V1 m ρ) c cc i j)
    (fun n i => host0_wt (W0 m ρ c) n i)
  rwa [V1_main_arg2 m ρ c] at h

/-! ## The softmax weights -/

/-- After the second host stretch the softmax weights are the reference's, as a function of the launch contents. -/
theorem beta_value (c : Dev nD) :
    StableHlo.after hostOps1 (W2 m ρ c) (Proc.devRef .tc main_v35)
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  beta_join (W2 m ρ c) _ _ _ _ _ (part_dot_0 m ρ c) (part_dot_1 m ρ c) (part_dot_2 m ρ c) (W2_main_arg4 m ρ c)

/-- The three weight rows region 1 is entered with: row `k` of the softmax weights. -/
theorem V3_w0 (c : Dev nD) (j : Fin 256) :
    (V3 m ρ c main_v36 : S1x256.Idx → EReal) (ix2 (0 : Fin 1) j)
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (0 : Fin 3) j) :=
  (host1_w0 (W2 m ρ c) j).trans (by rw [beta_value m ρ c])
theorem V3_w1 (c : Dev nD) (j : Fin 256) :
    (V3 m ρ c main_v37 : S1x256.Idx → EReal) (ix2 (0 : Fin 1) j)
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (1 : Fin 3) j) :=
  (host1_w1 (W2 m ρ c) j).trans (by rw [beta_value m ρ c])
theorem V3_w2 (c : Dev nD) (j : Fin 256) :
    (V3 m ρ c main_v38 : S1x256.Idx → EReal) (ix2 (0 : Fin 1) j)
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (2 : Fin 3) j) :=
  (host1_w2 (W2 m ρ c) j).trans (by rw [beta_value m ρ c])

/-! ## The result -/

/-- The result buffer at the end of the run is the reference's result, as a function of the launch contents of the
    five arguments: entry `(n, j)` is the three softmax weights of column `j` against the three inputs at `(n, j)`,
    on both sides. -/
theorem kernel_value (c : Dev nD) :
    W4 m ρ c (Proc.devRef .tc main_v39)
      = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext idx
  obtain ⟨n, j, rfl⟩ : ∃ (n : Fin 100000) (j : Fin 256), idx = ix2 n j := ⟨idx 0, idx 1, eq_ix2 idx⟩
  rw [W4_main_v39, final1, weighted_apply, Cert.ReferenceIdeal.RefValue.out_apply,
    V3_main_arg0, V3_main_arg1, V3_main_arg2, V3_w0, V3_w1, V3_w2]

/-- info: 'Cert.KernelIdeal.Hand.kernel_value' depends on axioms: [propext, Classical.choice, Quot.sound] -/
#guard_msgs in #print axioms kernel_value

end Cert.KernelIdeal.Hand

end
-- ==== Proof.lean ====
/-
  The proof of `Cert.Claim`.

  Both programs take three `100000 × 256` inputs `x₀, x₁, x₂`, a `256 × 100000` weight matrix `Wm` and a `1 × 256` row
  vector `h`. With `t_k = tanh (Wm · x_k)`, the scores are the three rows `h · t_k`, the weights `β` their softmax over the
  three rows (column by column), and the result is `out[n, j] = (β[0, j] · x₀[n, j] + β[1, j] · x₁[n, j]) + β[2, j] · x₂[n, j]`.

  The reference computes each product `Wm · x_k` as one contraction over the 100000 positions. The kernel program
  transposes `Wm`, and its first region accumulates, for each `k`, two `256 × 256` partial sums: each covers one half of
  the contracted positions, taken in 25 blocks of 2000. The host adds the two halves, and from there applies the same
  operations as the reference to reach `β`; its second region forms the weighted sum row block by row block.

  At the ideal instance floats are extended reals and every operation is exact, so the two programs agree as soon as
  the sum of the two halves is the full contraction: a finite sum of extended reals re-associated (blocks within a
  half, then the two halves) and re-indexed (position `n = 2000 · (25 · half + block) + r`). No operation of either
  program writes an argument array, which gives the three frame claims.
-/
import proofs.«142304_j59837484368571_2_alg».proof.Defs
import proofs.«142304_j59837484368571_2_alg».proof.Proof.Gen.Kernel
import proofs.«142304_j59837484368571_2_alg».proof.Proof.Gen.KernelIdeal
import proofs.«142304_j59837484368571_2_alg».proof.Proof.Gen.ReferenceIdeal
import proofs.«142304_j59837484368571_2_alg».proof.Proof.Gen.Pre_finite_inputs
import proofs.«142304_j59837484368571_2_alg».proof.Proof.K.Run
import proofs.«142304_j59837484368571_2_alg».proof.Proof.KI.Bridge
import proofs.«142304_j59837484368571_2_alg».proof.Proof.RefValue

noncomputable section

namespace Cert.Proof

open Idealize.ShloMosaic Idealize.SL.Sem

/-- From memories agreeing on the five arguments both programs run, end with the same result — the kernel program's
    result buffer at the end of its run, which is the reference's function of the arguments — and leave the arguments
    as launched. -/
theorem algebraic : Cert.algebraic_KernelIdeal_ReferenceIdeal := by
  intro m ρ m' ρ' _ hagree
  refine ⟨fun c => Cert.KernelIdeal.Hand.W4 m ρ c (Proc.devRef .tc Cert.KernelIdeal.main_v39),
    Cert.KernelIdeal.Hand.run_all m ρ, ?_⟩
  refine (θ_run Cert.ReferenceIdeal.defs _ _).mono (fun _ h c => ⟨(h c).1.trans ?_, (h c).2⟩)
    (Cert.ReferenceIdeal.RefValue.run_ref m' ρ')
  obtain ⟨e0, e1, e2, e3, e4⟩ := hagree c
  rw [e0, e1, e2, e3, e4]
  exact (Cert.KernelIdeal.Hand.kernel_value m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial, algebraic⟩

end Cert.Proof

end
